-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v90) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4194304x10 : Shape := ⟨2, ![4194304, 10]⟩
abbrev S5x10 : Shape := ⟨2, ![5, 10]⟩
abbrev S5 : Shape := ⟨1, ![5]⟩
abbrev S8x5x5 : Shape := ⟨3, ![8, 5, 5]⟩
abbrev S8x5 : Shape := ⟨2, ![8, 5]⟩
abbrev S1x5 : Shape := ⟨2, ![1, 5]⟩
abbrev S1 : Shape := ⟨1, ![1]⟩
abbrev S_ : Shape := ⟨0, ![]⟩

class Facts : Prop where
  bcast_S_S4194304x10 : S_.BroadcastsInDim S4194304x10 (![] : Fin 0 → Fin S4194304x10.rank)
  reducesTo_S4194304x10_S_d0_1 : S4194304x10.ReducesTo [0, 1] S_
  h_S_ : 0 < S_.numel
  bcast_S_S5x10 : S_.BroadcastsInDim S5x10 (![] : Fin 0 → Fin S5x10.rank)
  reducesTo_S5x10_S_d0_1 : S5x10.ReducesTo [0, 1] S_
  bcast_S_S5 : S_.BroadcastsInDim S5 (![] : Fin 0 → Fin S5.rank)
  reducesTo_S5_S_d0 : S5.ReducesTo [0] S_
  bcast_S_S8x5x5 : S_.BroadcastsInDim S8x5x5 (![] : Fin 0 → Fin S8x5x5.rank)
  reducesTo_S8x5x5_S_d0_1_2 : S8x5x5.ReducesTo [0, 1, 2] S_
  bcast_S_S8x5 : S_.BroadcastsInDim S8x5 (![] : Fin 0 → Fin S8x5.rank)
  reducesTo_S8x5_S_d0_1 : S8x5.ReducesTo [0, 1] S_
  bcast_S_S1x5 : S_.BroadcastsInDim S1x5 (![] : Fin 0 → Fin S1x5.rank)
  reducesTo_S1x5_S_d0_1 : S1x5.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg4 : FVec F S8x5 .f32) (main_arg5 : FVec F S1x5 .f32) (main_arg6 : FVec F S1 .f32) (main_v13 : IVec S_ 1) (main_v16 : IVec S8x5x5 1) : IVec S_ 1 :=
  let main_c_5 : IVec S_ 1 := constantI S_ 1 1#1
  let main_v17 : IVec S_ 1 := (fun x v => Host.reduce IntOp.andi x v reducesTo_S8x5x5_S_d0_1_2 h_S_) main_v16 main_c_5
  let main_v18 : IVec S_ 1 := andi main_v13 main_v17
  let main_v19 : FVec F S8x5 .f32 := Host.absf main_arg4
  let main_cst_6 : FVec F S_ .f32 := constant S_ .f32 0x7F800000#32
  let main_v20 : FVec F S8x5 .f32 := broadcastInDim S8x5 ![] bcast_S_S8x5 main_cst_6
  let main_v21 : IVec S8x5 1 := cmpf .olt main_v19 main_v20
  let main_c_7 : IVec S_ 1 := constantI S_ 1 1#1
  let main_v22 : IVec S_ 1 := (fun x v => Host.reduce IntOp.andi x v reducesTo_S8x5_S_d0_1 h_S_) main_v21 main_c_7
  let main_v23 : IVec S_ 1 := andi main_v18 main_v22
  let main_v24 : FVec F S1x5 .f32 := Host.absf main_arg5
  let main_cst_8 : FVec F S_ .f32 := constant S_ .f32 0x7F800000#32
  let main_v25 : FVec F S1x5 .f32 := broadcastInDim S1x5 ![] bcast_S_S1x5 main_cst_8
  let main_v26 : IVec S1x5 1 := cmpf .olt main_v24 main_v25
  let main_c_9 : IVec S_ 1 := constantI S_ 1 1#1
  let main_v27 : IVec S_ 1 := (fun x v => Host.reduce IntOp.andi x v reducesTo_S1x5_S_d0_1 h_S_) main_v26 main_c_9
  let main_v28 : IVec S_ 1 := andi main_v23 main_v27
  let main_v29 : FVec F S1 .f32 := Host.absf main_arg6
  let main_cst_10 : FVec F S_ .f32 := constant S_ .f32 0x7F800000#32
  let main_v30 : FVec F S1 .f32 := broadcastInDim S1 ![] bcast_S_S1 main_cst_10
  let main_v31 : IVec S1 1 := cmpf .olt main_v29 main_v30
  let main_c_11 : IVec S_ 1 := constantI S_ 1 1#1
  let main_v32 : IVec S_ 1 := (fun x v => Host.reduce IntOp.andi x v reducesTo_S1_S_d0 h_S_) main_v31 main_c_11
  let main_v33 : IVec S_ 1 := andi main_v28 main_v32
  main_v33

def fn {F : FTy → Type} [FloatOps F] (main_arg0 : FVec F S4194304x10 .f32) (main_arg1 : FVec F S5x10 .f32) (main_arg2 : FVec F S5 .f32) (main_arg3 : FVec F S8x5x5 .f32) (main_arg4 : FVec F S8x5 .f32) (main_arg5 : FVec F S1x5 .f32) (main_arg6 : FVec F S1 .f32) : IVec S_ 1 :=
  let main_v0 : FVec F S4194304x10 .f32 := Host.absf main_arg0
  let main_cst : FVec F S_ .f32 := constant S_ .f32 0x7F800000#32
  let main_v1 : FVec F S4194304x10 .f32 := broadcastInDim S4194304x10 ![] bcast_S_S4194304x10 main_cst
  let main_v2 : IVec S4194304x10 1 := cmpf .olt main_v0 main_v1
  let main_c : IVec S_ 1 := constantI S_ 1 1#1
  let main_v3 : IVec S_ 1 := (fun x v => Host.reduce IntOp.andi x v reducesTo_S4194304x10_S_d0_1 h_S_) main_v2 main_c
  let main_v4 : FVec F S5x10 .f32 := Host.absf main_arg1
  let main_cst_0 : FVec F S_ .f32 := constant S_ .f32 0x7F800000#32
  let main_v5 : FVec F S5x10 .f32 := broadcastInDim S5x10 ![] bcast_S_S5x10 main_cst_0
  let main_v6 : IVec S5x10 1 := cmpf .olt main_v4 main_v5
  let main_c_1 : IVec S_ 1 := constantI S_ 1 1#1
  let main_v7 : IVec S_ 1 := (fun x v => Host.reduce IntOp.andi x v reducesTo_S5x10_S_d0_1 h_S_) main_v6 main_c_1
  let main_v8 : IVec S_ 1 := andi main_v3 main_v7
  let main_v9 : FVec F S5 .f32 := Host.absf main_arg2
  let main_cst_2 : FVec F S_ .f32 := constant S_ .f32 0x7F800000#32
  let main_v10 : FVec F S5 .f32 := broadcastInDim S5 ![] bcast_S_S5 main_cst_2
  let main_v11 : IVec S5 1 := cmpf .olt main_v9 main_v10
  let main_c_3 : IVec S_ 1 := constantI S_ 1 1#1
  let main_v12 : IVec S_ 1 := (fun x v => Host.reduce IntOp.andi x v reducesTo_S5_S_d0 h_S_) main_v11 main_c_3
  let main_v13 : IVec S_ 1 := andi main_v8 main_v12
  let main_v14 : FVec F S8x5x5 .f32 := Host.absf main_arg3
  let main_cst_4 : FVec F S_ .f32 := constant S_ .f32 0x7F800000#32
  let main_v15 : FVec F S8x5x5 .f32 := broadcastInDim S8x5x5 ![] bcast_S_S8x5x5 main_cst_4
  let main_v16 : IVec S8x5x5 1 := cmpf .olt main_v14 main_v15
  fn_part1 (F := F) main_arg4 main_arg5 main_arg6 main_v13 main_v16
-- ==== Kernel.lean ====
abbrev S4194304x10 : Shape := ⟨2, ![4194304, 10]⟩
abbrev S5x10 : Shape := ⟨2, ![5, 10]⟩
abbrev S5 : Shape := ⟨1, ![5]⟩
abbrev S8x5x5 : Shape := ⟨3, ![8, 5, 5]⟩
abbrev S8x5 : Shape := ⟨2, ![8, 5]⟩
abbrev S1x5 : Shape := ⟨2, ![1, 5]⟩
abbrev S1 : Shape := ⟨1, ![1]⟩
abbrev S10x4194304 : Shape := ⟨2, ![10, 4194304]⟩
abbrev S5x1 : Shape := ⟨2, ![5, 1]⟩
abbrev S8x5x1 : Shape := ⟨3, ![8, 5, 1]⟩
abbrev S1x1 : Shape := ⟨2, ![1, 1]⟩
abbrev S1x4194304 : Shape := ⟨2, ![1, 4194304]⟩
abbrev S10x131072 : Shape := ⟨2, ![10, 131072]⟩
abbrev S1x131072 : Shape := ⟨2, ![1, 131072]⟩
abbrev S5x131072 : Shape := ⟨2, ![5, 131072]⟩
abbrev S1x5x5 : Shape := ⟨3, ![1, 5, 5]⟩
abbrev S5x5 : Shape := ⟨2, ![5, 5]⟩
abbrev S1x5x1 : Shape := ⟨3, ![1, 5, 1]⟩
abbrev S4194304x1 : Shape := ⟨2, ![4194304, 1]⟩

abbrev nBuf : Space → Nat
  | .hbm => 13
  | .vmem => 10
  | .smem => 0
  | _ => 0

abbrev bufTy : (tb : Table) → Fin (tcTables nBuf tb) → BufTy
  | .hbm, ⟨0, _⟩ => ⟨S4194304x10, .f32⟩
  | .hbm, ⟨1, _⟩ => ⟨S5x10, .f32⟩
  | .hbm, ⟨2, _⟩ => ⟨S5, .f32⟩
  | .hbm, ⟨3, _⟩ => ⟨S8x5x5, .f32⟩
  | .hbm, ⟨4, _⟩ => ⟨S8x5, .f32⟩
  | .hbm, ⟨5, _⟩ => ⟨S1x5, .f32⟩
  | .hbm, ⟨6, _⟩ => ⟨S1, .f32⟩
  | .hbm, ⟨7, _⟩ => ⟨S10x4194304, .f32⟩
  | .hbm, ⟨8, _⟩ => ⟨S5x1, .f32⟩
  | .hbm, ⟨9, _⟩ => ⟨S8x5x1, .f32⟩
  | .hbm, ⟨10, _⟩ => ⟨S1x1, .f32⟩
  | .hbm, ⟨11, _⟩ => ⟨S1x4194304, .f32⟩
  | .hbm, ⟨12, _⟩ => ⟨S4194304x1, .f32⟩
  | .local _ .vmem, ⟨0, _⟩ => ⟨S10x131072, .f32⟩
  | .local _ .vmem, ⟨1, _⟩ => ⟨S10x131072, .f32⟩
  | .local _ .vmem, ⟨2, _⟩ => ⟨S5x10, .f32⟩
  | .local _ .vmem, ⟨3, _⟩ => ⟨S5x1, .f32⟩
  | .local _ .vmem, ⟨4, _⟩ => ⟨S8x5x5, .f32⟩
  | .local _ .vmem, ⟨5, _⟩ => ⟨S8x5x1, .f32⟩
  | .local _ .vmem, ⟨6, _⟩ => ⟨S1x5, .f32⟩
  | .local _ .vmem, ⟨7, _⟩ => ⟨S1x1, .f32⟩
  | .local _ .vmem, ⟨8, _⟩ => ⟨S1x131072, .f32⟩
  | .local _ .vmem, ⟨9, _⟩ => ⟨S1x131072, .f32⟩
  | _, _ => ⟨S4194304x10, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S10x131072 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S5x10 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S5x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x5x5 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x5x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x5 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1x131072 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  transposes_S4194304x10_S10x4194304_1_0 : S4194304x10.Transposes [1, 0] S10x4194304
  shapeCasts_S5_S5x1 : S5.ShapeCasts S5x1
  shapeCasts_S8x5_S8x5x1 : S8x5.ShapeCasts S8x5x1
  shapeCasts_S1_S1x1 : S1.ShapeCasts S1x1
  inb_S10x131072_S10x131072_0_0 : ∀ a, (![0, 0] : Fin 2 → Nat) a + S10x131072.size a ≤ S10x131072.size a
  h_S10x131072 : 0 < S10x131072.numel
  shapeCasts_S10x131072_S10x131072 : S10x131072.ShapeCasts S10x131072
  inb_S5x10_S5x10_0_0 : ∀ a, (![0, 0] : Fin 2 → Nat) a + S5x10.size a ≤ S5x10.size a
  h_S5x10 : 0 < S5x10.numel
  inb_S5x1_S5x1_0_0 : ∀ a, (![0, 0] : Fin 2 → Nat) a + S5x1.size a ≤ S5x1.size a
  h_S5x1 : 0 < S5x1.numel
  shapeCasts_S5x1_S5x1 : S5x1.ShapeCasts S5x1
  broadcasts_S5x1_S5x131072 : S5x1.Broadcasts S5x131072
  inb_S8x5x5_S1x5x5_0_0_0 : ∀ a, (![0, 0, 0] : Fin 3 → Nat) a + S1x5x5.size a ≤ S8x5x5.size a
  h_S1x5x5 : 0 < S1x5x5.numel
  shapeCasts_S1x5x5_S5x5 : S1x5x5.ShapeCasts S5x5
  inb_S8x5x1_S1x5x1_0_0_0 : ∀ a, (![0, 0, 0] : Fin 3 → Nat) a + S1x5x1.size a ≤ S8x5x1.size a
  h_S1x5x1 : 0 < S1x5x1.numel
  shapeCasts_S1x5x1_S5x1 : S1x5x1.ShapeCasts S5x1
  inb_S8x5x5_S1x5x5_1_0_0 : ∀ a, (![1, 0, 0] : Fin 3 → Nat) a + S1x5x5.size a ≤ S8x5x5.size a
  inb_S8x5x1_S1x5x1_1_0_0 : ∀ a, (![1, 0, 0] : Fin 3 → Nat) a + S1x5x1.size a ≤ S8x5x1.size a
  inb_S8x5x5_S1x5x5_2_0_0 : ∀ a, (![2, 0, 0] : Fin 3 → Nat) a + S1x5x5.size a ≤ S8x5x5.size a
  inb_S8x5x1_S1x5x1_2_0_0 : ∀ a, (![2, 0, 0] : Fin 3 → Nat) a + S1x5x1.size a ≤ S8x5x1.size a
  inb_S8x5x5_S1x5x5_3_0_0 : ∀ a, (![3, 0, 0] : Fin 3 → Nat) a + S1x5x5.size a ≤ S8x5x5.size a
  inb_S8x5x1_S1x5x1_3_0_0 : ∀ a, (![3, 0, 0] : Fin 3 → Nat) a + S1x5x1.size a ≤ S8x5x1.size a
  inb_S8x5x5_S1x5x5_4_0_0 : ∀ a, (![4, 0, 0] : Fin 3 → Nat) a + S1x5x5.size a ≤ S8x5x5.size a
  inb_S8x5x1_S1x5x1_4_0_0 : ∀ a, (![4, 0, 0] : Fin 3 → Nat) a + S1x5x1.size a ≤ S8x5x1.size a
  inb_S8x5x5_S1x5x5_5_0_0 : ∀ a, (![5, 0, 0] : Fin 3 → Nat) a + S1x5x5.size a ≤ S8x5x5.size a
  inb_S8x5x1_S1x5x1_5_0_0 : ∀ a, (![5, 0, 0] : Fin 3 → Nat) a + S1x5x1.size a ≤ S8x5x1.size a
  inb_S8x5x5_S1x5x5_6_0_0 : ∀ a, (![6, 0, 0] : Fin 3 → Nat) a + S1x5x5.size a ≤ S8x5x5.size a
  inb_S8x5x1_S1x5x1_6_0_0 : ∀ a, (![6, 0, 0] : Fin 3 → Nat) a + S1x5x1.size a ≤ S8x5x1.size a
  inb_S8x5x5_S1x5x5_7_0_0 : ∀ a, (![7, 0, 0] : Fin 3 → Nat) a + S1x5x5.size a ≤ S8x5x5.size a
  inb_S8x5x1_S1x5x1_7_0_0 : ∀ a, (![7, 0, 0] : Fin 3 → Nat) a + S1x5x1.size a ≤ S8x5x1.size a
  inb_S1x5_S1x5_0_0 : ∀ a, (![0, 0] : Fin 2 → Nat) a + S1x5.size a ≤ S1x5.size a
  h_S1x5 : 0 < S1x5.numel
  inb_S1x1_S1x1_0_0 : ∀ a, (![0, 0] : Fin 2 → Nat) a + S1x1.size a ≤ S1x1.size a
  h_S1x1 : 0 < S1x1.numel
  inpos_S1x1_p0_0 : ∀ a, (![0, 0] : Fin 2 → Nat) a < S1x1.size a
  inb_S1x131072_S1x131072_0_0 : ∀ a, (![0, 0] : Fin 2 → Nat) a + S1x131072.size a ≤ S1x131072.size a
  h_S1x131072 : 0 < S1x131072.numel
  shapeCasts_S1x4194304_S4194304x1 : S1x4194304.ShapeCasts S4194304x1
  dot_S5x10_S10x131072_S5x131072_1_0_0_1_n_n_wf : DotDims.WF S5x10 S10x131072 S5x131072 [1] [0] [0] [1] [] []
  dot_S5x5_S5x131072_S5x131072_1_0_0_1_n_n_wf : DotDims.WF S5x5 S5x131072 S5x131072 [1] [0] [0] [1] [] []
  dot_S1x5_S5x131072_S1x131072_1_0_0_1_n_n_wf : DotDims.WF S1x5 S5x131072 S1x131072 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10x131072.size a ≤ S10x4194304.size a
  hwx0_0 : ∀ i : grid0.Coords, EltTy.bits .f32 = 32 ∨ (Rect.block (s := S10x4194304) S10x131072.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S5x10.size a ≤ S5x10.size a
  hwx0_1 : ∀ i : grid0.Coords, EltTy.bits .f32 = 32 ∨ (Rect.block (s := S5x10) S5x10.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S5x1.size a ≤ S5x1.size a
  hwx0_2 : ∀ i : grid0.Coords, EltTy.bits .f32 = 32 ∨ (Rect.block (s := S5x1) S5x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S8x5x5.size a ≤ S8x5x5.size a
  hwx0_3 : ∀ i : grid0.Coords, EltTy.bits .f32 = 32 ∨ (Rect.block (s := S8x5x5) S8x5x5.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S8x5x1.size a ≤ S8x5x1.size a
  hwx0_4 : ∀ i : grid0.Coords, EltTy.bits .f32 = 32 ∨ (Rect.block (s := S8x5x1) S8x5x1.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x5.size a ≤ S1x5.size a
  hwx0_5 : ∀ i : grid0.Coords, EltTy.bits .f32 = 32 ∨ (Rect.block (s := S1x5) S1x5.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x1.size a ≤ S1x1.size a
  hwx0_6 : ∀ i : grid0.Coords, EltTy.bits .f32 = 32 ∨ (Rect.block (s := S1x1) S1x1.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x131072.size a ≤ S1x4194304.size a
  hwx0_7 : ∀ i : grid0.Coords, EltTy.bits .f32 = 32 ∨ (Rect.block (s := S1x4194304) S1x131072.size (cc0_transform_7 i) (hinb0_7 i)).WholeWords (EltTy.packing .f32)

variable [Facts₀]

def dot_S5x10_S10x131072_S5x131072_1_0_0_1_n_n : DotDims S5x10 S10x131072 S5x131072 where
  lhsContracting := [1]
  rhsContracting := [0]
  lhsNonContracting := [0]
  rhsNonContracting := [1]
  lhsBatch := []
  rhsBatch := []
  wf := dot_S5x10_S10x131072_S5x131072_1_0_0_1_n_n_wf
def dot_S5x5_S5x131072_S5x131072_1_0_0_1_n_n : DotDims S5x5 S5x131072 S5x131072 where
  lhsContracting := [1]
  rhsContracting := [0]
  lhsNonContracting := [0]
  rhsNonContracting := [1]
  lhsBatch := []
  rhsBatch := []
  wf := dot_S5x5_S5x131072_S5x131072_1_0_0_1_n_n_wf
def dot_S1x5_S5x131072_S1x131072_1_0_0_1_n_n : DotDims S1x5 S5x131072 S1x131072 where
  lhsContracting := [1]
  rhsContracting := [0]
  lhsNonContracting := [0]
  rhsNonContracting := [1]
  lhsBatch := []
  rhsBatch := []
  wf := dot_S1x5_S5x131072_S1x131072_1_0_0_1_n_n_wf

abbrev win0_0 : Pipeline.Window sig grid0 :=
  Pipeline.Window.ofSpec (Memref.whole main_v0) S10x131072.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S5x10.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S5x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S8x5x5.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2) S8x5x1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S1x5.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v3) S1x1.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v4) S1x131072.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S4194304x10 : Shape := ⟨2, ![4194304, 10]⟩
abbrev S5x10 : Shape := ⟨2, ![5, 10]⟩
abbrev S5 : Shape := ⟨1, ![5]⟩
abbrev S8x5x5 : Shape := ⟨3, ![8, 5, 5]⟩
abbrev S8x5 : Shape := ⟨2, ![8, 5]⟩
abbrev S1x5 : Shape := ⟨2, ![1, 5]⟩
abbrev S1 : Shape := ⟨1, ![1]⟩
abbrev S10x5 : Shape := ⟨2, ![10, 5]⟩
abbrev S4194304x5 : Shape := ⟨2, ![4194304, 5]⟩
abbrev S_ : Shape := ⟨0, ![]⟩
abbrev S1x5x5 : Shape := ⟨3, ![1, 5, 5]⟩
abbrev S5x5 : Shape := ⟨2, ![5, 5]⟩
abbrev S5x1 : Shape := ⟨2, ![5, 1]⟩
abbrev S4194304x1 : Shape := ⟨2, ![4194304, 1]⟩
abbrev S1x1 : Shape := ⟨2, ![1, 1]⟩

abbrev nBuf : Space → Nat
  | .hbm => 116
  | .vmem => 0
  | .smem => 0
  | _ => 0

abbrev bufTy : (tb : Table) → Fin (tcTables nBuf tb) → BufTy
  | .hbm, ⟨0, _⟩ => ⟨S4194304x10, .f32⟩
  | .hbm, ⟨1, _⟩ => ⟨S5x10, .f32⟩
  | .hbm, ⟨2, _⟩ => ⟨S5, .f32⟩
  | .hbm, ⟨3, _⟩ => ⟨S8x5x5, .f32⟩
  | .hbm, ⟨4, _⟩ => ⟨S8x5, .f32⟩
  | .hbm, ⟨5, _⟩ => ⟨S1x5, .f32⟩
  | .hbm, ⟨6, _⟩ => ⟨S1, .f32⟩
  | .hbm, ⟨7, _⟩ => ⟨S10x5, .f32⟩
  | .hbm, ⟨8, _⟩ => ⟨S4194304x5, .f32⟩
  | .hbm, ⟨9, _⟩ => ⟨S1x5, .f32⟩
  | .hbm, ⟨10, _⟩ => ⟨S4194304x5, .f32⟩
  | .hbm, ⟨11, _⟩ => ⟨S4194304x5, .f32⟩
  | .hbm, ⟨12, _⟩ => ⟨S_, .f32⟩
  | .hbm, ⟨13, _⟩ => ⟨S4194304x5, .f32⟩
  | .hbm, ⟨14, _⟩ => ⟨S4194304x5, .f32⟩
  | .hbm, ⟨15, _⟩ => ⟨S1x5x5, .f32⟩
  | .hbm, ⟨16, _⟩ => ⟨S5x5, .f32⟩
  | .hbm, ⟨17, _⟩ => ⟨S5x5, .f32⟩
  | .hbm, ⟨18, _⟩ => ⟨S4194304x5, .f32⟩
  | .hbm, ⟨19, _⟩ => ⟨S1x5, .f32⟩
  | .hbm, ⟨20, _⟩ => ⟨S5, .f32⟩
  | .hbm, ⟨21, _⟩ => ⟨S1x5, .f32⟩
  | .hbm, ⟨22, _⟩ => ⟨S4194304x5, .f32⟩
  | .hbm, ⟨23, _⟩ => ⟨S4194304x5, .f32⟩
  | .hbm, ⟨24, _⟩ => ⟨S_, .f32⟩
  | .hbm, ⟨25, _⟩ => ⟨S4194304x5, .f32⟩
  | .hbm, ⟨26, _⟩ => ⟨S4194304x5, .f32⟩
  | .hbm, ⟨27, _⟩ => ⟨S1x5x5, .f32⟩
  | .hbm, ⟨28, _⟩ => ⟨S5x5, .f32⟩
  | .hbm, ⟨29, _⟩ => ⟨S5x5, .f32⟩
  | .hbm, ⟨30, _⟩ => ⟨S4194304x5, .f32⟩
  | .hbm, ⟨31, _⟩ => ⟨S1x5, .f32⟩
  | .hbm, ⟨32, _⟩ => ⟨S5, .f32⟩
  | .hbm, ⟨33, _⟩ => ⟨S1x5, .f32⟩
  | .hbm, ⟨34, _⟩ => ⟨S4194304x5, .f32⟩
  | .hbm, ⟨35, _⟩ => ⟨S4194304x5, .f32⟩
  | .hbm, ⟨36, _⟩ => ⟨S_, .f32⟩
  | .hbm, ⟨37, _⟩ => ⟨S4194304x5, .f32⟩
  | .hbm, ⟨38, _⟩ => ⟨S4194304x5, .f32⟩
  | .hbm, ⟨39, _⟩ => ⟨S1x5x5, .f32⟩
  | .hbm, ⟨40, _⟩ => ⟨S5x5, .f32⟩
  | .hbm, ⟨41, _⟩ => ⟨S5x5, .f32⟩
  | .hbm, ⟨42, _⟩ => ⟨S4194304x5, .f32⟩
  | .hbm, ⟨43, _⟩ => ⟨S1x5, .f32⟩
  | .hbm, ⟨44, _⟩ => ⟨S5, .f32⟩
  | .hbm, ⟨45, _⟩ => ⟨S1x5, .f32⟩
  | .hbm, ⟨46, _⟩ => ⟨S4194304x5, .f32⟩
  | .hbm, ⟨47, _⟩ => ⟨S4194304x5, .f32⟩
  | .hbm, ⟨48, _⟩ => ⟨S_, .f32⟩
  | .hbm, ⟨49, _⟩ => ⟨S4194304x5, .f32⟩
  | .hbm, ⟨50, _⟩ => ⟨S4194304x5, .f32⟩
  | .hbm, ⟨51, _⟩ => ⟨S1x5x5, .f32⟩
  | .hbm, ⟨52, _⟩ => ⟨S5x5, .f32⟩
  | .hbm, ⟨53, _⟩ => ⟨S5x5, .f32⟩
  | .hbm, ⟨54, _⟩ => ⟨S4194304x5, .f32⟩
  | .hbm, ⟨55, _⟩ => ⟨S1x5, .f32⟩
  | .hbm, ⟨56, _⟩ => ⟨S5, .f32⟩
  | .hbm, ⟨57, _⟩ => ⟨S1x5, .f32⟩
  | .hbm, ⟨58, _⟩ => ⟨S4194304x5, .f32⟩
  | .hbm, ⟨59, _⟩ => ⟨S4194304x5, .f32⟩
  | .hbm, ⟨60, _⟩ => ⟨S_, .f32⟩
  | .hbm, ⟨61, _⟩ => ⟨S4194304x5, .f32⟩
  | .hbm, ⟨62, _⟩ => ⟨S4194304x5, .f32⟩
  | .hbm, ⟨63, _⟩ => ⟨S1x5x5, .f32⟩
  | .hbm, ⟨64, _⟩ => ⟨S5x5, .f32⟩
  | .hbm, ⟨65, _⟩ => ⟨S5x5, .f32⟩
  | .hbm, ⟨66, _⟩ => ⟨S4194304x5, .f32⟩
  | .hbm, ⟨67, _⟩ => ⟨S1x5, .f32⟩
  | .hbm, ⟨68, _⟩ => ⟨S5, .f32⟩
  | .hbm, ⟨69, _⟩ => ⟨S1x5, .f32⟩
  | .hbm, ⟨70, _⟩ => ⟨S4194304x5, .f32⟩
  | .hbm, ⟨71, _⟩ => ⟨S4194304x5, .f32⟩
  | .hbm, ⟨72, _⟩ => ⟨S_, .f32⟩
  | .hbm, ⟨73, _⟩ => ⟨S4194304x5, .f32⟩
  | .hbm, ⟨74, _⟩ => ⟨S4194304x5, .f32⟩
  | .hbm, ⟨75, _⟩ => ⟨S1x5x5, .f32⟩
  | .hbm, ⟨76, _⟩ => ⟨S5x5, .f32⟩
  | .hbm, ⟨77, _⟩ => ⟨S5x5, .f32⟩
  | .hbm, ⟨78, _⟩ => ⟨S4194304x5, .f32⟩
  | .hbm, ⟨79, _⟩ => ⟨S1x5, .f32⟩
  | .hbm, ⟨80, _⟩ => ⟨S5, .f32⟩
  | .hbm, ⟨81, _⟩ => ⟨S1x5, .f32⟩
  | .hbm, ⟨82, _⟩ => ⟨S4194304x5, .f32⟩
  | .hbm, ⟨83, _⟩ => ⟨S4194304x5, .f32⟩
  | .hbm, ⟨84, _⟩ => ⟨S_, .f32⟩
  | .hbm, ⟨85, _⟩ => ⟨S4194304x5, .f32⟩
  | .hbm, ⟨86, _⟩ => ⟨S4194304x5, .f32⟩
  | .hbm, ⟨87, _⟩ => ⟨S1x5x5, .f32⟩
  | .hbm, ⟨88, _⟩ => ⟨S5x5, .f32⟩
  | .hbm, ⟨89, _⟩ => ⟨S5x5, .f32⟩
  | .hbm, ⟨90, _⟩ => ⟨S4194304x5, .f32⟩
  | .hbm, ⟨91, _⟩ => ⟨S1x5, .f32⟩
  | .hbm, ⟨92, _⟩ => ⟨S5, .f32⟩
  | .hbm, ⟨93, _⟩ => ⟨S1x5, .f32⟩
  | .hbm, ⟨94, _⟩ => ⟨S4194304x5, .f32⟩
  | .hbm, ⟨95, _⟩ => ⟨S4194304x5, .f32⟩
  | .hbm, ⟨96, _⟩ => ⟨S_, .f32⟩
  | .hbm, ⟨97, _⟩ => ⟨S4194304x5, .f32⟩
  | .hbm, ⟨98, _⟩ => ⟨S4194304x5, .f32⟩
  | .hbm, ⟨99, _⟩ => ⟨S1x5x5, .f32⟩
  | .hbm, ⟨100, _⟩ => ⟨S5x5, .f32⟩
  | .hbm, ⟨101, _⟩ => ⟨S5x5, .f32⟩
  | .hbm, ⟨102, _⟩ => ⟨S4194304x5, .f32⟩
  | .hbm, ⟨103, _⟩ => ⟨S1x5, .f32⟩
  | .hbm, ⟨104, _⟩ => ⟨S5, .f32⟩
  | .hbm, ⟨105, _⟩ => ⟨S1x5, .f32⟩
  | .hbm, ⟨106, _⟩ => ⟨S4194304x5, .f32⟩
  | .hbm, ⟨107, _⟩ => ⟨S4194304x5, .f32⟩
  | .hbm, ⟨108, _⟩ => ⟨S_, .f32⟩
  | .hbm, ⟨109, _⟩ => ⟨S4194304x5, .f32⟩
  | .hbm, ⟨110, _⟩ => ⟨S4194304x5, .f32⟩
  | .hbm, ⟨111, _⟩ => ⟨S5x1, .f32⟩
  | .hbm, ⟨112, _⟩ => ⟨S4194304x1, .f32⟩
  | .hbm, ⟨113, _⟩ => ⟨S1x1, .f32⟩
  | .hbm, ⟨114, _⟩ => ⟨S4194304x1, .f32⟩
  | .hbm, ⟨115, _⟩ => ⟨S4194304x1, .f32⟩
  | _, _ => ⟨S4194304x10, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_call0_cst : Ref sig .tc := ⟨.hbm, 12, rfl⟩
abbrev main_call0_v0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_call1_cst : Ref sig .tc := ⟨.hbm, 24, rfl⟩
abbrev main_call1_v0 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_call2_cst : Ref sig .tc := ⟨.hbm, 36, rfl⟩
abbrev main_call2_v0 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_call3_cst : Ref sig .tc := ⟨.hbm, 48, rfl⟩
abbrev main_call3_v0 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_call4_cst : Ref sig .tc := ⟨.hbm, 60, rfl⟩
abbrev main_call4_v0 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_call5_cst : Ref sig .tc := ⟨.hbm, 72, rfl⟩
abbrev main_call5_v0 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_call6_cst : Ref sig .tc := ⟨.hbm, 84, rfl⟩
abbrev main_call6_v0 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_call7_cst : Ref sig .tc := ⟨.hbm, 96, rfl⟩
abbrev main_call7_v0 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩
abbrev main_v82 : Ref sig .tc := ⟨.hbm, 105, rfl⟩
abbrev main_v83 : Ref sig .tc := ⟨.hbm, 106, rfl⟩
abbrev main_v84 : Ref sig .tc := ⟨.hbm, 107, rfl⟩
abbrev main_call8_cst : Ref sig .tc := ⟨.hbm, 108, rfl⟩
abbrev main_call8_v0 : Ref sig .tc := ⟨.hbm, 109, rfl⟩
abbrev main_v85 : Ref sig .tc := ⟨.hbm, 110, rfl⟩
abbrev main_v86 : Ref sig .tc := ⟨.hbm, 111, rfl⟩
abbrev main_v87 : Ref sig .tc := ⟨.hbm, 112, rfl⟩
abbrev main_v88 : Ref sig .tc := ⟨.hbm, 113, rfl⟩
abbrev main_v89 : Ref sig .tc := ⟨.hbm, 114, rfl⟩
abbrev main_v90 : Ref sig .tc := ⟨.hbm, 115, rfl⟩

abbrev nD : Nat := 1
abbrev τ : Topo := Topo.v7x

variable {F : FTy → Type} [FloatOps F]

class Facts₀ : Prop where
  transposes_S5x10_S10x5_1_0 : S5x10.Transposes [1, 0] S10x5
  bcast_S5_S1x5_1 : S5.BroadcastsInDim S1x5 (![1] : Fin 1 → Fin S1x5.rank)
  bcast_S1x5_S4194304x5_0_1 : S1x5.BroadcastsInDim S4194304x5 (![0, 1] : Fin 2 → Fin S4194304x5.rank)
  bcast_S_S4194304x5 : S_.BroadcastsInDim S4194304x5 (![] : Fin 0 → Fin S4194304x5.rank)
  slices_S8x5x5_S1x5x5_0_0_0 : S8x5x5.Slices ![0, 0, 0] S1x5x5
  shapeCasts_S1x5x5_S5x5 : S1x5x5.ShapeCasts S5x5
  transposes_S5x5_S5x5_1_0 : S5x5.Transposes [1, 0] S5x5
  slices_S8x5_S1x5_0_0 : S8x5.Slices ![0, 0] S1x5
  shapeCasts_S1x5_S5 : S1x5.ShapeCasts S5
  slices_S8x5x5_S1x5x5_1_0_0 : S8x5x5.Slices ![1, 0, 0] S1x5x5
  slices_S8x5_S1x5_1_0 : S8x5.Slices ![1, 0] S1x5
  slices_S8x5x5_S1x5x5_2_0_0 : S8x5x5.Slices ![2, 0, 0] S1x5x5
  slices_S8x5_S1x5_2_0 : S8x5.Slices ![2, 0] S1x5
  slices_S8x5x5_S1x5x5_3_0_0 : S8x5x5.Slices ![3, 0, 0] S1x5x5
  slices_S8x5_S1x5_3_0 : S8x5.Slices ![3, 0] S1x5
  slices_S8x5x5_S1x5x5_4_0_0 : S8x5x5.Slices ![4, 0, 0] S1x5x5
  slices_S8x5_S1x5_4_0 : S8x5.Slices ![4, 0] S1x5
  slices_S8x5x5_S1x5x5_5_0_0 : S8x5x5.Slices ![5, 0, 0] S1x5x5
  slices_S8x5_S1x5_5_0 : S8x5.Slices ![5, 0] S1x5
  slices_S8x5x5_S1x5x5_6_0_0 : S8x5x5.Slices ![6, 0, 0] S1x5x5
  slices_S8x5_S1x5_6_0 : S8x5.Slices ![6, 0] S1x5
  slices_S8x5x5_S1x5x5_7_0_0 : S8x5x5.Slices ![7, 0, 0] S1x5x5
  slices_S8x5_S1x5_7_0 : S8x5.Slices ![7, 0] S1x5
  transposes_S1x5_S5x1_1_0 : S1x5.Transposes [1, 0] S5x1
  bcast_S1_S1x1_1 : S1.BroadcastsInDim S1x1 (![1] : Fin 1 → Fin S1x1.rank)
  bcast_S1x1_S4194304x1_0_1 : S1x1.BroadcastsInDim S4194304x1 (![0, 1] : Fin 2 → Fin S4194304x1.rank)
  dot_S4194304x10_S10x5_S4194304x5_1_0_0_1_n_n_wf : DotDims.WF S4194304x10 S10x5 S4194304x5 [1] [0] [0] [1] [] []
  dot_S4194304x5_S5x5_S4194304x5_1_0_0_1_n_n_wf : DotDims.WF S4194304x5 S5x5 S4194304x5 [1] [0] [0] [1] [] []
  dot_S4194304x5_S5x1_S4194304x1_1_0_0_1_n_n_wf : DotDims.WF S4194304x5 S5x1 S4194304x1 [1] [0] [0] [1] [] []

variable [Facts₀]

def dot_S4194304x10_S10x5_S4194304x5_1_0_0_1_n_n : DotDims S4194304x10 S10x5 S4194304x5 where
  lhsContracting := [1]
  rhsContracting := [0]
  lhsNonContracting := [0]
  rhsNonContracting := [1]
  lhsBatch := []
  rhsBatch := []
  wf := dot_S4194304x10_S10x5_S4194304x5_1_0_0_1_n_n_wf
def dot_S4194304x5_S5x5_S4194304x5_1_0_0_1_n_n : DotDims S4194304x5 S5x5 S4194304x5 where
  lhsContracting := [1]
  rhsContracting := [0]
  lhsNonContracting := [0]
  rhsNonContracting := [1]
  lhsBatch := []
  rhsBatch := []
  wf := dot_S4194304x5_S5x5_S4194304x5_1_0_0_1_n_n_wf
def dot_S4194304x5_S5x1_S4194304x1_1_0_0_1_n_n : DotDims S4194304x5 S5x1 S4194304x1 where
  lhsContracting := [1]
  rhsContracting := [0]
  lhsNonContracting := [0]
  rhsNonContracting := [1]
  lhsBatch := []
  rhsBatch := []
  wf := dot_S4194304x5_S5x1_S4194304x1_1_0_0_1_n_n_wf

class Facts : Prop extends Facts₀ where

variable [Facts]
-- ==== Proof.Spec.lean ====
/-
  The function both programs compute, one sample at a time, over the extended reals.

  A sample is a row of ten numbers. A dense layer takes a vector `h` of `K` numbers, a weight matrix `W` stored
  [out, in] and a bias `b` to the vector `j ↦ max ((Σ k, h k · W j k) + b j) 0`. The network is nine such layers — the
  first of width 10 → 5 with weights `W1`, `b1`, then eight of width 5 → 5 with weights `Wmid[l]`, `bmid[l]` — followed by
  one affine map 5 → 1 (`W10`, `b10`) with no maximum. The result array has one entry per sample.

  The two programs differ only in how they lay the samples out (as rows, or as columns after a transpose) and in the
  order of the two factors of each product, so the one law that joins them is commutativity of the product, which holds
  on all of the extended reals: no finiteness of the inputs is used anywhere.
-/
import Idealize.ShloMosaic.PureOps.Ideal
import Idealize.ShloMosaic.Lib.ValueIdx

noncomputable section

namespace Cert.MlpSpec

open Idealize.ShloMosaic Idealize.ShloMosaic.ValueIdx

/-- One dense layer followed by the maximum with zero: `j ↦ max ((Σ k, h k · W j k) + b j) 0`. -/
def dense {K J : ℕ} (h : Fin K → EReal) (W : Fin J → Fin K → EReal) (b : Fin J → EReal) : Fin J → EReal :=
  fun j => max ((∑ k, h k * W j k) + b j) 0

/-- The same layer with every product written weight first: the product commutes. -/
theorem dense_weight_first {K J : ℕ} (h : Fin K → EReal) (W : Fin J → Fin K → EReal) (b : Fin J → EReal) (j : Fin J) :
    max ((∑ k, W j k * h k) + b j) 0 = dense h W b j := by
  unfold dense
  rw [Finset.sum_congr rfl fun k _ => mul_comm (W j k) (h k)]

/-- The last, affine layer: `(Σ k, h k · w k) + b`. -/
def affine {K : ℕ} (h : Fin K → EReal) (w : Fin K → EReal) (b : EReal) : EReal :=
  (∑ k, h k * w k) + b

/-- The affine layer with every product written weight first. -/
theorem affine_weight_first {K : ℕ} (h : Fin K → EReal) (w : Fin K → EReal) (b : EReal) :
    (∑ k, w k * h k) + b = affine h w b := by
  unfold affine
  rw [Finset.sum_congr rfl fun k _ => mul_comm (w k) (h k)]

/-- The first layer, 10 → 5, on a sample `xrow`. -/
def first (W1 : (⟨2, ![5, 10]⟩ : Shape).Idx → EReal) (b1 : (⟨1, ![5]⟩ : Shape).Idx → EReal) (xrow : Fin 10 → EReal) :
    Fin 5 → EReal :=
  dense xrow (fun j k => W1 (ix2 j k)) (fun j => b1 (ix1 j))

/-- Middle layer `l` (of eight), 5 → 5: the weights are slab `l` of `Wmid` and row `l` of `bmid`. -/
def mid (Wmid : (⟨3, ![8, 5, 5]⟩ : Shape).Idx → EReal) (bmid : (⟨2, ![8, 5]⟩ : Shape).Idx → EReal) (l : Fin 8)
    (h : Fin 5 → EReal) : Fin 5 → EReal :=
  dense h (fun j k => Wmid (ix3 l j k)) (fun j => bmid (ix2 l j))

/-- The last layer, 5 → 1. -/
def last (W10 : (⟨2, ![1, 5]⟩ : Shape).Idx → EReal) (b10 : (⟨1, ![1]⟩ : Shape).Idx → EReal) (h : Fin 5 → EReal) : EReal :=
  affine h (fun k => W10 (ix2 (0 : Fin 1) k)) (b10 (ix1 (0 : Fin 1)))

/-- The hidden vector of a sample after the first layer and all eight middle layers. -/
def hidden (W1 : (⟨2, ![5, 10]⟩ : Shape).Idx → EReal) (b1 : (⟨1, ![5]⟩ : Shape).Idx → EReal)
    (Wmid : (⟨3, ![8, 5, 5]⟩ : Shape).Idx → EReal) (bmid : (⟨2, ![8, 5]⟩ : Shape).Idx → EReal)
    (xrow : Fin 10 → EReal) : Fin 5 → EReal :=
  mid Wmid bmid 7 (mid Wmid bmid 6 (mid Wmid bmid 5 (mid Wmid bmid 4 (mid Wmid bmid 3 (mid Wmid bmid 2
    (mid Wmid bmid 1 (mid Wmid bmid 0 (first W1 b1 xrow))))))))

/-- The network's value on one sample. -/
def net (W1 : (⟨2, ![5, 10]⟩ : Shape).Idx → EReal) (b1 : (⟨1, ![5]⟩ : Shape).Idx → EReal)
    (Wmid : (⟨3, ![8, 5, 5]⟩ : Shape).Idx → EReal) (bmid : (⟨2, ![8, 5]⟩ : Shape).Idx → EReal)
    (W10 : (⟨2, ![1, 5]⟩ : Shape).Idx → EReal) (b10 : (⟨1, ![1]⟩ : Shape).Idx → EReal)
    (xrow : Fin 10 → EReal) : EReal :=
  last W10 b10 (hidden W1 b1 Wmid bmid xrow)

/-- The result array: entry `(n, 0)` is the network's value on sample `n`, row `n` of `x`. -/
def result (x : (⟨2, ![4194304, 10]⟩ : Shape).Idx → EReal)
    (W1 : (⟨2, ![5, 10]⟩ : Shape).Idx → EReal) (b1 : (⟨1, ![5]⟩ : Shape).Idx → EReal)
    (Wmid : (⟨3, ![8, 5, 5]⟩ : Shape).Idx → EReal) (bmid : (⟨2, ![8, 5]⟩ : Shape).Idx → EReal)
    (W10 : (⟨2, ![1, 5]⟩ : Shape).Idx → EReal) (b10 : (⟨1, ![1]⟩ : Shape).Idx → EReal) :
    (⟨2, ![4194304, 1]⟩ : Shape).Idx → EReal :=
  fun i => net W1 b1 Wmid bmid W10 b10 (fun k => x (ix2 (i 0) k))

end Cert.MlpSpec

end
-- ==== Proof.RefValue.lean ====
/-
  The reference, read as the network of Spec.lean.

  The reference keeps the samples as the rows of an [N, 5] array. Each of its layers is a product of that array with a
  transposed weight matrix (so entry (n, j) is Σ k, h[n, k] · W[j, k]), a bias broadcast along the rows, and a maximum
  with a zero array; the weight of middle layer `l` is slab `l` of `Wmid` sliced out, reshaped to 5 × 5 and transposed, its
  bias row `l` of `bmid`. Read on one sample `n` each layer is `dense` of the previous layer's row, and the last one
  `affine`; composing the ten gives the specification's `result`.
-/
import proofs.«169064_j71399536328822_2_alg».proof.Proof.Gen.ReferenceIdeal.Read
import proofs.«169064_j71399536328822_2_alg».proof.Proof.Spec
import Idealize.ShloMosaic.Lib.Pipeline.Value
import Idealize.ShloMosaic.Lib.ValueIdx
import Idealize.ShloMosaic.PureOps.Ideal.Laws

noncomputable section

namespace Cert.RefValue

open Cert.ReferenceIdeal Cert.ReferenceIdeal.Gen Cert.ReferenceIdeal.Read
open Idealize.ShloMosaic Idealize.ShloMosaic.ValueIdx

/-! ## The three contractions, as sums over the contracted coordinate -/

/-- The product of the samples' rows with a 10 × 5 matrix, at `(n, j)`: the sum over the ten features. -/
theorem dot10_apply (lv : FVec Ideal S4194304x10 .f32) (rv : FVec Ideal S10x5 .f32) (n : Fin 4194304) (j : Fin 5) :
    Host.dotGeneral (F := Ideal) dot_S4194304x10_S10x5_S4194304x5_1_0_0_1_n_n none lv rv (ix2 n j)
      = ∑ k : Fin 10, lv (ix2 n k) * rv (ix2 k j) := by
  simp only [Host.dotGeneral]
  rw [Ideal.dotGeneral_apply, ← Equiv.sum_comp (contrEquiv1 dot_S4194304x10_S10x5_S4194304x5_1_0_0_1_n_n 10 rfl rfl).symm]
  refine Finset.sum_congr rfl fun k _ => ?_
  have hk := contrEquiv1_symm_val dot_S4194304x10_S10x5_S4194304x5_1_0_0_1_n_n 10 rfl rfl k
  have el : dot_S4194304x10_S10x5_S4194304x5_1_0_0_1_n_n.lhsIdx (ix2 n j) ((contrEquiv1 dot_S4194304x10_S10x5_S4194304x5_1_0_0_1_n_n 10 rfl rfl).symm k) = ix2 n k :=
    funext fun a => Fin.ext (by
      match a with
      | ⟨0, _⟩ => exact lhs_main_v1_0 _ _
      | ⟨1, _⟩ => exact (lhs_main_v1_1 _ _).trans hk)
  have er : dot_S4194304x10_S10x5_S4194304x5_1_0_0_1_n_n.rhsIdx (ix2 n j) ((contrEquiv1 dot_S4194304x10_S10x5_S4194304x5_1_0_0_1_n_n 10 rfl rfl).symm k) = ix2 k j :=
    funext fun a => Fin.ext (by
      match a with
      | ⟨0, _⟩ => exact (rhs_main_v1_0 _ _).trans hk
      | ⟨1, _⟩ => exact rhs_main_v1_1 _ _)
  rw [el, er]

/-- The product of the hidden rows with a 5 × 5 matrix, at `(n, j)`: the sum over the five hidden units. -/
theorem dot5_apply (lv : FVec Ideal S4194304x5 .f32) (rv : FVec Ideal S5x5 .f32) (n : Fin 4194304) (j : Fin 5) :
    Host.dotGeneral (F := Ideal) dot_S4194304x5_S5x5_S4194304x5_1_0_0_1_n_n none lv rv (ix2 n j)
      = ∑ k : Fin 5, lv (ix2 n k) * rv (ix2 k j) := by
  simp only [Host.dotGeneral]
  rw [Ideal.dotGeneral_apply, ← Equiv.sum_comp (contrEquiv1 dot_S4194304x5_S5x5_S4194304x5_1_0_0_1_n_n 5 rfl rfl).symm]
  refine Finset.sum_congr rfl fun k _ => ?_
  have hk := contrEquiv1_symm_val dot_S4194304x5_S5x5_S4194304x5_1_0_0_1_n_n 5 rfl rfl k
  have el : dot_S4194304x5_S5x5_S4194304x5_1_0_0_1_n_n.lhsIdx (ix2 n j) ((contrEquiv1 dot_S4194304x5_S5x5_S4194304x5_1_0_0_1_n_n 5 rfl rfl).symm k) = ix2 n k :=
    funext fun a => Fin.ext (by
      match a with
      | ⟨0, _⟩ => exact lhs_main_v9_0 _ _
      | ⟨1, _⟩ => exact (lhs_main_v9_1 _ _).trans hk)
  have er : dot_S4194304x5_S5x5_S4194304x5_1_0_0_1_n_n.rhsIdx (ix2 n j) ((contrEquiv1 dot_S4194304x5_S5x5_S4194304x5_1_0_0_1_n_n 5 rfl rfl).symm k) = ix2 k j :=
    funext fun a => Fin.ext (by
      match a with
      | ⟨0, _⟩ => exact (rhs_main_v9_0 _ _).trans hk
      | ⟨1, _⟩ => exact rhs_main_v9_1 _ _)
  rw [el, er]

/-- The product of the hidden rows with a 5 × 1 column, at `(n, u)`: the sum over the five hidden units. -/
theorem dot1_apply (lv : FVec Ideal S4194304x5 .f32) (rv : FVec Ideal S5x1 .f32) (n : Fin 4194304) (u : Fin 1) :
    Host.dotGeneral (F := Ideal) dot_S4194304x5_S5x1_S4194304x1_1_0_0_1_n_n none lv rv (ix2 n u)
      = ∑ k : Fin 5, lv (ix2 n k) * rv (ix2 k u) := by
  simp only [Host.dotGeneral]
  rw [Ideal.dotGeneral_apply, ← Equiv.sum_comp (contrEquiv1 dot_S4194304x5_S5x1_S4194304x1_1_0_0_1_n_n 5 rfl rfl).symm]
  refine Finset.sum_congr rfl fun k _ => ?_
  have hk := contrEquiv1_symm_val dot_S4194304x5_S5x1_S4194304x1_1_0_0_1_n_n 5 rfl rfl k
  have el : dot_S4194304x5_S5x1_S4194304x1_1_0_0_1_n_n.lhsIdx (ix2 n u) ((contrEquiv1 dot_S4194304x5_S5x1_S4194304x1_1_0_0_1_n_n 5 rfl rfl).symm k) = ix2 n k :=
    funext fun a => Fin.ext (by
      match a with
      | ⟨0, _⟩ => exact lhs_main_v87_0 _ _
      | ⟨1, _⟩ => exact (lhs_main_v87_1 _ _).trans hk)
  have er : dot_S4194304x5_S5x1_S4194304x1_1_0_0_1_n_n.rhsIdx (ix2 n u) ((contrEquiv1 dot_S4194304x5_S5x1_S4194304x1_1_0_0_1_n_n 5 rfl rfl).symm k) = ix2 k u :=
    funext fun a => Fin.ext (by
      match a with
      | ⟨0, _⟩ => exact (rhs_main_v87_0 _ _).trans hk
      | ⟨1, _⟩ => exact rhs_main_v87_1 _ _)
  rw [el, er]

/-! ## The pieces of a layer, read at an index -/

/-- Slab `l` of `Wmid`, reshaped to 5 × 5 and transposed, holds at `(k, j)` the weight `Wmid[l, j, k]`. -/
theorem weight_apply (x3 : FVec Ideal S8x5x5 .f32) (l : Fin 8) (hs : S8x5x5.Slices ![l.val, 0, 0] S1x5x5) (k j : Fin 5) :
    transpose S5x5 [1, 0] (shapeCast S5x5 (extractStridedSlice S1x5x5 ![l.val, 0, 0] x3 hs) shapeCasts_S1x5x5_S5x5)
        transposes_S5x5_S5x5_1_0 (ix2 k j) = x3 (ix3 l j k) := by
  refine (transpose_apply [1, 0] _ transposes_S5x5_S5x5_1_0 (ix2 k j) (ix2 j k) (fun b => match b with
    | ⟨0, _⟩ => rfl
    | ⟨1, _⟩ => rfl)).trans ?_
  refine (shapeCast_apply _ shapeCasts_S1x5x5_S5x5 (ix2 j k) (ix3 (0 : Fin 1) j k) (by
    rw [Shape.rowMajor_val_three, Shape.rowMajor_val_two]
    show (0 * 5 + j.val) * 5 + k.val = j.val * 5 + k.val
    omega)).trans ?_
  exact extractStridedSlice_apply ![l.val, 0, 0] x3 hs (ix3 (0 : Fin 1) j k) (ix3 l j k) (fun a => match a with
    | ⟨0, _⟩ => by show l.val = l.val + 0; omega
    | ⟨1, _⟩ => by show j.val = 0 + j.val; omega
    | ⟨2, _⟩ => by show k.val = 0 + k.val; omega)

/-- Row `l` of `bmid`, sliced out, flattened and broadcast along the samples, holds at `(n, j)` the bias `bmid[l, j]`. -/
theorem bias_apply (x4 : FVec Ideal S8x5 .f32) (l : Fin 8) (hs : S8x5.Slices ![l.val, 0] S1x5) (n : Fin 4194304) (j : Fin 5) :
    broadcastInDim S4194304x5 ![0, 1] bcast_S1x5_S4194304x5_0_1
        (broadcastInDim S1x5 ![1] bcast_S5_S1x5_1 (shapeCast S5 (extractStridedSlice S1x5 ![l.val, 0] x4 hs) shapeCasts_S1x5_S5))
        (ix2 n j) = x4 (ix2 l j) := by
  refine (broadcastInDim_apply _ bcast_S1x5_S4194304x5_0_1 _ (ix2 n j) (ix2 (0 : Fin 1) j) (fun a => match a with
    | ⟨0, _⟩ => by show 0 = if (1 : Nat) = 1 then 0 else n.val; rw [if_pos rfl]
    | ⟨1, _⟩ => by show j.val = if (5 : Nat) = 1 then 0 else j.val; rw [if_neg (by decide)])).trans ?_
  refine (broadcastInDim_apply _ bcast_S5_S1x5_1 _ (ix2 (0 : Fin 1) j) (ix1 j) (fun a => match a with
    | ⟨0, _⟩ => by show j.val = if (5 : Nat) = 1 then 0 else j.val; rw [if_neg (by decide)])).trans ?_
  refine (shapeCast_apply _ shapeCasts_S1x5_S5 (ix1 j) (ix2 (0 : Fin 1) j) (by
    rw [Shape.rowMajor_val_two, Shape.rowMajor_val_one]
    show 0 * 5 + j.val = j.val
    omega)).trans ?_
  exact extractStridedSlice_apply ![l.val, 0] x4 hs (ix2 (0 : Fin 1) j) (ix2 l j) (fun a => match a with
    | ⟨0, _⟩ => by show l.val = l.val + 0; omega
    | ⟨1, _⟩ => by show j.val = 0 + j.val; omega)

/-- The array a layer takes its maximum against is zero everywhere. -/
theorem zero_apply (i : S4194304x5.Idx) :
    broadcastInDim S4194304x5 ![] bcast_S_S4194304x5 (constant (F := Ideal) S_ .f32 0x00000000#32) i = 0 := by
  refine (broadcastInDim_apply _ bcast_S_S4194304x5 _ i ix0 (fun a => a.elim0)).trans ?_
  rw [constant_apply]
  exact Ideal.ofBits_zero_f32

/-- A layer `max (dot + bias) zero` at `(n, j)`, given what its three operands read there, is `dense` of the row the
    contraction runs over. -/
theorem relu_apply {K : ℕ} (dotv bias zero : FVec Ideal S4194304x5 .f32) (hrow : Fin K → EReal) (W : Fin 5 → Fin K → EReal)
    (b : Fin 5 → EReal) (n : Fin 4194304) (j : Fin 5)
    (hd : dotv (ix2 n j) = ∑ k, hrow k * W j k) (hb : bias (ix2 n j) = b j) (hz : zero (ix2 n j) = 0) :
    maximumf (addf dotv bias) zero (ix2 n j) = MlpSpec.dense hrow W b j := by
  rw [maximumf_apply, addf_apply, hd, hb, hz]
  rfl

/-! ## The layers, on one sample -/

/-- The first layer of the reference, on sample `n`: stage v5 of the run is `max (x · W1ᵀ + b1) 0`. -/
theorem row_first (x0 : FVec Ideal S4194304x10 .f32) (x1 : FVec Ideal S5x10 .f32) (x2 : FVec Ideal S5 .f32) (n : Fin 4194304) :
    (fun j : Fin 5 => val_main_v5 (F := Ideal) x0 x1 x2 (ix2 n j))
      = MlpSpec.first x1 x2 (fun k : Fin 10 => x0 (ix2 n k)) := by
  funext j
  unfold val_main_v5 val_main_v4 val_main_v1 MlpSpec.first
  refine relu_apply _ _ _ _ _ _ n j ?_ ?_ ?_
  · rw [dot10_apply]
    refine Finset.sum_congr rfl fun k _ => ?_
    show _ * val_main_v0 (F := Ideal) x1 (ix2 k j) = _ * x1 (ix2 j k)
    rw [val_main_v0_apply]
    exact congrArg (fun i => x0 (ix2 n k) * x1 i) (funext fun a => match a with
      | ⟨0, _⟩ => rfl
      | ⟨1, _⟩ => rfl)
  · rw [val_main_v3_apply, val_main_v2_apply]
    exact congrArg x2 (funext fun a => match a with
      | ⟨0, _⟩ => rfl)
  · unfold val_main_call0_v0 val_main_call0_cst
    exact zero_apply _

/-- Middle layer 0 of the reference, on sample `n`: stage v15 of the run is `max (v5 · Wmid[0]ᵀ + bmid[0]) 0`. -/
theorem row_mid0 (x0 : FVec Ideal S4194304x10 .f32) (x1 : FVec Ideal S5x10 .f32) (x2 : FVec Ideal S5 .f32)
    (x3 : FVec Ideal S8x5x5 .f32) (x4 : FVec Ideal S8x5 .f32) (n : Fin 4194304) :
    (fun j : Fin 5 => val_main_v15 (F := Ideal) x0 x1 x2 x3 x4 (ix2 n j))
      = MlpSpec.mid x3 x4 0 (fun k : Fin 5 => val_main_v5 (F := Ideal) x0 x1 x2 (ix2 n k)) := by
  funext j
  unfold val_main_v15 val_main_v14 val_main_v9 MlpSpec.mid
  refine relu_apply _ _ _ _ _ _ n j ?_ ?_ ?_
  · rw [dot5_apply]
    refine Finset.sum_congr rfl fun k _ => ?_
    show _ * val_main_v8 (F := Ideal) x3 (ix2 k j) = _ * x3 (ix3 (0 : Fin 8) j k)
    unfold val_main_v8 val_main_v7 val_main_v6
    exact congrArg (_ * ·) (weight_apply x3 0 slices_S8x5x5_S1x5x5_0_0_0 k j)
  · unfold val_main_v13 val_main_v12 val_main_v11 val_main_v10
    exact bias_apply x4 0 slices_S8x5_S1x5_0_0 n j
  · unfold val_main_call1_v0 val_main_call1_cst
    exact zero_apply _

/-- Middle layer 1 of the reference, on sample `n`: stage v25 of the run is `max (v15 · Wmid[1]ᵀ + bmid[1]) 0`. -/
theorem row_mid1 (x0 : FVec Ideal S4194304x10 .f32) (x1 : FVec Ideal S5x10 .f32) (x2 : FVec Ideal S5 .f32)
    (x3 : FVec Ideal S8x5x5 .f32) (x4 : FVec Ideal S8x5 .f32) (n : Fin 4194304) :
    (fun j : Fin 5 => val_main_v25 (F := Ideal) x0 x1 x2 x3 x4 (ix2 n j))
      = MlpSpec.mid x3 x4 1 (fun k : Fin 5 => val_main_v15 (F := Ideal) x0 x1 x2 x3 x4 (ix2 n k)) := by
  funext j
  unfold val_main_v25 val_main_v24 val_main_v19 MlpSpec.mid
  refine relu_apply _ _ _ _ _ _ n j ?_ ?_ ?_
  · rw [dot5_apply]
    refine Finset.sum_congr rfl fun k _ => ?_
    show _ * val_main_v18 (F := Ideal) x3 (ix2 k j) = _ * x3 (ix3 (1 : Fin 8) j k)
    unfold val_main_v18 val_main_v17 val_main_v16
    exact congrArg (_ * ·) (weight_apply x3 1 slices_S8x5x5_S1x5x5_1_0_0 k j)
  · unfold val_main_v23 val_main_v22 val_main_v21 val_main_v20
    exact bias_apply x4 1 slices_S8x5_S1x5_1_0 n j
  · unfold val_main_call2_v0 val_main_call2_cst
    exact zero_apply _

/-- Middle layer 2 of the reference, on sample `n`: stage v35 of the run is `max (v25 · Wmid[2]ᵀ + bmid[2]) 0`. -/
theorem row_mid2 (x0 : FVec Ideal S4194304x10 .f32) (x1 : FVec Ideal S5x10 .f32) (x2 : FVec Ideal S5 .f32)
    (x3 : FVec Ideal S8x5x5 .f32) (x4 : FVec Ideal S8x5 .f32) (n : Fin 4194304) :
    (fun j : Fin 5 => val_main_v35 (F := Ideal) x0 x1 x2 x3 x4 (ix2 n j))
      = MlpSpec.mid x3 x4 2 (fun k : Fin 5 => val_main_v25 (F := Ideal) x0 x1 x2 x3 x4 (ix2 n k)) := by
  funext j
  unfold val_main_v35 val_main_v34 val_main_v29 MlpSpec.mid
  refine relu_apply _ _ _ _ _ _ n j ?_ ?_ ?_
  · rw [dot5_apply]
    refine Finset.sum_congr rfl fun k _ => ?_
    show _ * val_main_v28 (F := Ideal) x3 (ix2 k j) = _ * x3 (ix3 (2 : Fin 8) j k)
    unfold val_main_v28 val_main_v27 val_main_v26
    exact congrArg (_ * ·) (weight_apply x3 2 slices_S8x5x5_S1x5x5_2_0_0 k j)
  · unfold val_main_v33 val_main_v32 val_main_v31 val_main_v30
    exact bias_apply x4 2 slices_S8x5_S1x5_2_0 n j
  · unfold val_main_call3_v0 val_main_call3_cst
    exact zero_apply _

/-- Middle layer 3 of the reference, on sample `n`: stage v45 of the run is `max (v35 · Wmid[3]ᵀ + bmid[3]) 0`. -/
theorem row_mid3 (x0 : FVec Ideal S4194304x10 .f32) (x1 : FVec Ideal S5x10 .f32) (x2 : FVec Ideal S5 .f32)
    (x3 : FVec Ideal S8x5x5 .f32) (x4 : FVec Ideal S8x5 .f32) (n : Fin 4194304) :
    (fun j : Fin 5 => val_main_v45 (F := Ideal) x0 x1 x2 x3 x4 (ix2 n j))
      = MlpSpec.mid x3 x4 3 (fun k : Fin 5 => val_main_v35 (F := Ideal) x0 x1 x2 x3 x4 (ix2 n k)) := by
  funext j
  unfold val_main_v45 val_main_v44 val_main_v39 MlpSpec.mid
  refine relu_apply _ _ _ _ _ _ n j ?_ ?_ ?_
  · rw [dot5_apply]
    refine Finset.sum_congr rfl fun k _ => ?_
    show _ * val_main_v38 (F := Ideal) x3 (ix2 k j) = _ * x3 (ix3 (3 : Fin 8) j k)
    unfold val_main_v38 val_main_v37 val_main_v36
    exact congrArg (_ * ·) (weight_apply x3 3 slices_S8x5x5_S1x5x5_3_0_0 k j)
  · unfold val_main_v43 val_main_v42 val_main_v41 val_main_v40
    exact bias_apply x4 3 slices_S8x5_S1x5_3_0 n j
  · unfold val_main_call4_v0 val_main_call4_cst
    exact zero_apply _

/-- Middle layer 4 of the reference, on sample `n`: stage v55 of the run is `max (v45 · Wmid[4]ᵀ + bmid[4]) 0`. -/
theorem row_mid4 (x0 : FVec Ideal S4194304x10 .f32) (x1 : FVec Ideal S5x10 .f32) (x2 : FVec Ideal S5 .f32)
    (x3 : FVec Ideal S8x5x5 .f32) (x4 : FVec Ideal S8x5 .f32) (n : Fin 4194304) :
    (fun j : Fin 5 => val_main_v55 (F := Ideal) x0 x1 x2 x3 x4 (ix2 n j))
      = MlpSpec.mid x3 x4 4 (fun k : Fin 5 => val_main_v45 (F := Ideal) x0 x1 x2 x3 x4 (ix2 n k)) := by
  funext j
  unfold val_main_v55 val_main_v54 val_main_v49 MlpSpec.mid
  refine relu_apply _ _ _ _ _ _ n j ?_ ?_ ?_
  · rw [dot5_apply]
    refine Finset.sum_congr rfl fun k _ => ?_
    show _ * val_main_v48 (F := Ideal) x3 (ix2 k j) = _ * x3 (ix3 (4 : Fin 8) j k)
    unfold val_main_v48 val_main_v47 val_main_v46
    exact congrArg (_ * ·) (weight_apply x3 4 slices_S8x5x5_S1x5x5_4_0_0 k j)
  · unfold val_main_v53 val_main_v52 val_main_v51 val_main_v50
    exact bias_apply x4 4 slices_S8x5_S1x5_4_0 n j
  · unfold val_main_call5_v0 val_main_call5_cst
    exact zero_apply _

/-- Middle layer 5 of the reference, on sample `n`: stage v65 of the run is `max (v55 · Wmid[5]ᵀ + bmid[5]) 0`. -/
theorem row_mid5 (x0 : FVec Ideal S4194304x10 .f32) (x1 : FVec Ideal S5x10 .f32) (x2 : FVec Ideal S5 .f32)
    (x3 : FVec Ideal S8x5x5 .f32) (x4 : FVec Ideal S8x5 .f32) (n : Fin 4194304) :
    (fun j : Fin 5 => val_main_v65 (F := Ideal) x0 x1 x2 x3 x4 (ix2 n j))
      = MlpSpec.mid x3 x4 5 (fun k : Fin 5 => val_main_v55 (F := Ideal) x0 x1 x2 x3 x4 (ix2 n k)) := by
  funext j
  unfold val_main_v65 val_main_v64 val_main_v59 MlpSpec.mid
  refine relu_apply _ _ _ _ _ _ n j ?_ ?_ ?_
  · rw [dot5_apply]
    refine Finset.sum_congr rfl fun k _ => ?_
    show _ * val_main_v58 (F := Ideal) x3 (ix2 k j) = _ * x3 (ix3 (5 : Fin 8) j k)
    unfold val_main_v58 val_main_v57 val_main_v56
    exact congrArg (_ * ·) (weight_apply x3 5 slices_S8x5x5_S1x5x5_5_0_0 k j)
  · unfold val_main_v63 val_main_v62 val_main_v61 val_main_v60
    exact bias_apply x4 5 slices_S8x5_S1x5_5_0 n j
  · unfold val_main_call6_v0 val_main_call6_cst
    exact zero_apply _

/-- Middle layer 6 of the reference, on sample `n`: stage v75 of the run is `max (v65 · Wmid[6]ᵀ + bmid[6]) 0`. -/
theorem row_mid6 (x0 : FVec Ideal S4194304x10 .f32) (x1 : FVec Ideal S5x10 .f32) (x2 : FVec Ideal S5 .f32)
    (x3 : FVec Ideal S8x5x5 .f32) (x4 : FVec Ideal S8x5 .f32) (n : Fin 4194304) :
    (fun j : Fin 5 => val_main_v75 (F := Ideal) x0 x1 x2 x3 x4 (ix2 n j))
      = MlpSpec.mid x3 x4 6 (fun k : Fin 5 => val_main_v65 (F := Ideal) x0 x1 x2 x3 x4 (ix2 n k)) := by
  funext j
  unfold val_main_v75 val_main_v74 val_main_v69 MlpSpec.mid
  refine relu_apply _ _ _ _ _ _ n j ?_ ?_ ?_
  · rw [dot5_apply]
    refine Finset.sum_congr rfl fun k _ => ?_
    show _ * val_main_v68 (F := Ideal) x3 (ix2 k j) = _ * x3 (ix3 (6 : Fin 8) j k)
    unfold val_main_v68 val_main_v67 val_main_v66
    exact congrArg (_ * ·) (weight_apply x3 6 slices_S8x5x5_S1x5x5_6_0_0 k j)
  · unfold val_main_v73 val_main_v72 val_main_v71 val_main_v70
    exact bias_apply x4 6 slices_S8x5_S1x5_6_0 n j
  · unfold val_main_call7_v0 val_main_call7_cst
    exact zero_apply _

/-- Middle layer 7 of the reference, on sample `n`: stage v85 of the run is `max (v75 · Wmid[7]ᵀ + bmid[7]) 0`. -/
theorem row_mid7 (x0 : FVec Ideal S4194304x10 .f32) (x1 : FVec Ideal S5x10 .f32) (x2 : FVec Ideal S5 .f32)
    (x3 : FVec Ideal S8x5x5 .f32) (x4 : FVec Ideal S8x5 .f32) (n : Fin 4194304) :
    (fun j : Fin 5 => val_main_v85 (F := Ideal) x0 x1 x2 x3 x4 (ix2 n j))
      = MlpSpec.mid x3 x4 7 (fun k : Fin 5 => val_main_v75 (F := Ideal) x0 x1 x2 x3 x4 (ix2 n k)) := by
  funext j
  unfold val_main_v85 val_main_v84 val_main_v79 MlpSpec.mid
  refine relu_apply _ _ _ _ _ _ n j ?_ ?_ ?_
  · rw [dot5_apply]
    refine Finset.sum_congr rfl fun k _ => ?_
    show _ * val_main_v78 (F := Ideal) x3 (ix2 k j) = _ * x3 (ix3 (7 : Fin 8) j k)
    unfold val_main_v78 val_main_v77 val_main_v76
    exact congrArg (_ * ·) (weight_apply x3 7 slices_S8x5x5_S1x5x5_7_0_0 k j)
  · unfold val_main_v83 val_main_v82 val_main_v81 val_main_v80
    exact bias_apply x4 7 slices_S8x5_S1x5_7_0 n j
  · unfold val_main_call8_v0 val_main_call8_cst
    exact zero_apply _

/-- The last layer of the reference, on sample `n`: the result is `v85 · W10ᵀ + b10`, with no maximum. -/
theorem last_apply (x0 : FVec Ideal S4194304x10 .f32) (x1 : FVec Ideal S5x10 .f32) (x2 : FVec Ideal S5 .f32)
    (x3 : FVec Ideal S8x5x5 .f32) (x4 : FVec Ideal S8x5 .f32) (x5 : FVec Ideal S1x5 .f32) (x6 : FVec Ideal S1 .f32)
    (n : Fin 4194304) (u : Fin 1) :
    val_main_v90 (F := Ideal) x0 x1 x2 x3 x4 x5 x6 (ix2 n u)
      = MlpSpec.last x5 x6 (fun k : Fin 5 => val_main_v85 (F := Ideal) x0 x1 x2 x3 x4 (ix2 n k)) := by
  unfold val_main_v90 val_main_v87 MlpSpec.last MlpSpec.affine
  rw [addf_apply, dot1_apply]
  have hw : ∀ k : Fin 5, val_main_v86 (F := Ideal) x5 (ix2 k u) = x5 (ix2 (0 : Fin 1) k) := fun k => by
    rw [val_main_v86_apply]
    exact congrArg x5 (funext fun a => match a with
      | ⟨0, _⟩ => Fin.ext (by show u.val = 0; omega)
      | ⟨1, _⟩ => rfl)
  have hb : val_main_v89 (F := Ideal) x6 (ix2 n u) = x6 (ix1 (0 : Fin 1)) := by
    rw [val_main_v89_apply, val_main_v88_apply]
    exact congrArg x6 (funext fun a => match a with
      | ⟨0, _⟩ => rfl)
  rw [hb, Finset.sum_congr rfl fun k _ => by rw [hw k]]

/-! ## The whole reference -/

/-- The hidden row of sample `n` after the ninth layer is the specification's. -/
theorem hidden_eq (x0 : FVec Ideal S4194304x10 .f32) (x1 : FVec Ideal S5x10 .f32) (x2 : FVec Ideal S5 .f32)
    (x3 : FVec Ideal S8x5x5 .f32) (x4 : FVec Ideal S8x5 .f32) (n : Fin 4194304) :
    (fun k : Fin 5 => val_main_v85 (F := Ideal) x0 x1 x2 x3 x4 (ix2 n k))
      = MlpSpec.hidden x1 x2 x3 x4 (fun k : Fin 10 => x0 (ix2 n k)) := by
  rw [row_mid7, row_mid6, row_mid5, row_mid4, row_mid3, row_mid2, row_mid1, row_mid0, row_first]
  rfl

/-- The reference's result stage, as a function of the seven argument arrays, is the specification's `result`. -/
theorem val_eq_result (x0 : FVec Ideal S4194304x10 .f32) (x1 : FVec Ideal S5x10 .f32) (x2 : FVec Ideal S5 .f32)
    (x3 : FVec Ideal S8x5x5 .f32) (x4 : FVec Ideal S8x5 .f32) (x5 : FVec Ideal S1x5 .f32) (x6 : FVec Ideal S1 .f32) :
    val_main_v90 (F := Ideal) x0 x1 x2 x3 x4 x5 x6 = MlpSpec.result x0 x1 x2 x3 x4 x5 x6 := by
  funext i
  obtain ⟨n, u, rfl⟩ : ∃ (n : Fin 4194304) (u : Fin 1), i = ix2 n u := ⟨i 0, i 1, eq_ix2 i⟩
  rw [last_apply, hidden_eq]
  rfl

end Cert.RefValue

end
-- ==== Proof.LibColumn.lean ====
/-
  Two layout operations read at an index, for a per-row quantity kept as a column (a sum over the last axis with the
  reduced axis kept as a unit axis): the cast of a vector of `a` entries to an `a`-by-`1` column, and the broadcast of
  such a column across `b` columns. Both are stated over coordinates of literal extents.
-/
import Idealize.ShloMosaic.Lib.Pipeline.Value
import Idealize.ShloMosaic.Lib.ValueIdx

namespace Idealize.ShloMosaic.ColumnLayout

open Idealize.ShloMosaic Idealize.ShloMosaic.ValueIdx

variable {α : Type}

/-- An `[a]` array cast to `[a, 1]` reads, at `(i, u)`, the operand at `i`, whatever the unit coordinate `u`: the two
    indices have the same row-major position, `i * 1 + 0`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    omega)

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ColumnLayout
-- ==== Proof.KerLayer.lean ====
/-
  The kernel's arithmetic, read one sample at a time.

  The kernel keeps a block of samples as the COLUMNS of its activations: a [10, B] block of inputs, [5, B] hidden
  activations, a [1, B] block of results. Each layer multiplies a weight matrix (stored [out, in]) by the activation from
  the left, so entry (j, q) is Σ k, W[j, k] · h[k, q]; adds the bias, kept as a [5, 1] column and broadcast along the
  samples; and takes the maximum with a zero splat. Read on one column `q` each layer is therefore `dense` of the
  previous layer's column — the products only have their factors in the other order — and the last one is `affine`.
  The weights of a middle layer arrive as a [1, 5, 5] and a [1, 5, 1] piece whose leading unit axis is dropped.
-/
import proofs.«169064_j71399536328822_2_alg».proof.Proof.Gen.KernelIdeal.Skeleton
import proofs.«169064_j71399536328822_2_alg».proof.Proof.Spec
import proofs.«169064_j71399536328822_2_alg».proof.Proof.LibColumn
import Idealize.ShloMosaic.Lib.Pipeline.Value
import Idealize.ShloMosaic.Lib.ValueIdx
import Idealize.ShloMosaic.PureOps.Ideal.Laws

noncomputable section

namespace Cert.KerValue

open Cert.KernelIdeal Cert.KernelIdeal.Gen
open Idealize.ShloMosaic Idealize.ShloMosaic.ValueIdx Idealize.ShloMosaic.ColumnLayout

/-! ## The three matrix products into a zero accumulator, as sums over the contracted coordinate -/

theorem mm10_lhs0 (i : S5x131072.Idx) (q : dot_S5x10_S10x131072_S5x131072_1_0_0_1_n_n.contr.Idx) : (dot_S5x10_S10x131072_S5x131072_1_0_0_1_n_n.lhsIdx i q 0).val = (i 0).val := by
  unfold DotDims.lhsIdx
  rw [dif_neg (show ¬(0 : Fin S5x10.rank) ∈ dot_S5x10_S10x131072_S5x131072_1_0_0_1_n_n.lhsBatch by decide), dif_pos (show (0 : Fin S5x10.rank) ∈ dot_S5x10_S10x131072_S5x131072_1_0_0_1_n_n.lhsNonContracting by decide)]
  rfl
theorem mm10_lhs1 (i : S5x131072.Idx) (q : dot_S5x10_S10x131072_S5x131072_1_0_0_1_n_n.contr.Idx) : (dot_S5x10_S10x131072_S5x131072_1_0_0_1_n_n.lhsIdx i q 1).val = (q ⟨0, by decide⟩).val :=
  dot_S5x10_S10x131072_S5x131072_1_0_0_1_n_n.lhsIdx_val_of_single rfl i q
theorem mm10_rhs0 (i : S5x131072.Idx) (q : dot_S5x10_S10x131072_S5x131072_1_0_0_1_n_n.contr.Idx) : (dot_S5x10_S10x131072_S5x131072_1_0_0_1_n_n.rhsIdx i q 0).val = (q ⟨0, by decide⟩).val :=
  dot_S5x10_S10x131072_S5x131072_1_0_0_1_n_n.rhsIdx_val_of_single rfl i q
theorem mm10_rhs1 (i : S5x131072.Idx) (q : dot_S5x10_S10x131072_S5x131072_1_0_0_1_n_n.contr.Idx) : (dot_S5x10_S10x131072_S5x131072_1_0_0_1_n_n.rhsIdx i q 1).val = (i 1).val := by
  unfold DotDims.rhsIdx
  rw [dif_neg (show ¬(1 : Fin S10x131072.rank) ∈ dot_S5x10_S10x131072_S5x131072_1_0_0_1_n_n.rhsBatch by decide), dif_pos (show (1 : Fin S10x131072.rank) ∈ dot_S5x10_S10x131072_S5x131072_1_0_0_1_n_n.rhsNonContracting by decide)]
  rfl
/-- A 5 × 10 weight times a [10, B] block of inputs, at `(p, q)`: the sum over the ten features. -/
theorem mm10_apply (lv : FVec Ideal S5x10 .f32) (rv : FVec Ideal S10x131072 .f32) (p : Fin 5) (q : Fin 131072) :
    matmul dot_S5x10_S10x131072_S5x131072_1_0_0_1_n_n none lv rv (constant (F := Ideal) S5x131072 .f32 0x00000000#32) (ix2 p q)
      = ∑ k : Fin 10, lv (ix2 p k) * rv (ix2 k q) := by
  refine (Ideal.matmul_constant_zero_apply dot_S5x10_S10x131072_S5x131072_1_0_0_1_n_n none lv rv (ix2 p q)).trans ?_
  rw [← Equiv.sum_comp (contrEquiv1 dot_S5x10_S10x131072_S5x131072_1_0_0_1_n_n 10 rfl rfl).symm]
  refine Finset.sum_congr rfl fun k _ => ?_
  have hk := contrEquiv1_symm_val dot_S5x10_S10x131072_S5x131072_1_0_0_1_n_n 10 rfl rfl k
  have el : dot_S5x10_S10x131072_S5x131072_1_0_0_1_n_n.lhsIdx (ix2 p q) ((contrEquiv1 dot_S5x10_S10x131072_S5x131072_1_0_0_1_n_n 10 rfl rfl).symm k) = ix2 p k :=
    funext fun a => Fin.ext (by
      match a with
      | ⟨0, _⟩ => exact mm10_lhs0 _ _
      | ⟨1, _⟩ => exact (mm10_lhs1 _ _).trans hk)
  have er : dot_S5x10_S10x131072_S5x131072_1_0_0_1_n_n.rhsIdx (ix2 p q) ((contrEquiv1 dot_S5x10_S10x131072_S5x131072_1_0_0_1_n_n 10 rfl rfl).symm k) = ix2 k q :=
    funext fun a => Fin.ext (by
      match a with
      | ⟨0, _⟩ => exact (mm10_rhs0 _ _).trans hk
      | ⟨1, _⟩ => exact mm10_rhs1 _ _)
  rw [el, er]

theorem mm5_lhs0 (i : S5x131072.Idx) (q : dot_S5x5_S5x131072_S5x131072_1_0_0_1_n_n.contr.Idx) : (dot_S5x5_S5x131072_S5x131072_1_0_0_1_n_n.lhsIdx i q 0).val = (i 0).val := by
  unfold DotDims.lhsIdx
  rw [dif_neg (show ¬(0 : Fin S5x5.rank) ∈ dot_S5x5_S5x131072_S5x131072_1_0_0_1_n_n.lhsBatch by decide), dif_pos (show (0 : Fin S5x5.rank) ∈ dot_S5x5_S5x131072_S5x131072_1_0_0_1_n_n.lhsNonContracting by decide)]
  rfl
theorem mm5_lhs1 (i : S5x131072.Idx) (q : dot_S5x5_S5x131072_S5x131072_1_0_0_1_n_n.contr.Idx) : (dot_S5x5_S5x131072_S5x131072_1_0_0_1_n_n.lhsIdx i q 1).val = (q ⟨0, by decide⟩).val :=
  dot_S5x5_S5x131072_S5x131072_1_0_0_1_n_n.lhsIdx_val_of_single rfl i q
theorem mm5_rhs0 (i : S5x131072.Idx) (q : dot_S5x5_S5x131072_S5x131072_1_0_0_1_n_n.contr.Idx) : (dot_S5x5_S5x131072_S5x131072_1_0_0_1_n_n.rhsIdx i q 0).val = (q ⟨0, by decide⟩).val :=
  dot_S5x5_S5x131072_S5x131072_1_0_0_1_n_n.rhsIdx_val_of_single rfl i q
theorem mm5_rhs1 (i : S5x131072.Idx) (q : dot_S5x5_S5x131072_S5x131072_1_0_0_1_n_n.contr.Idx) : (dot_S5x5_S5x131072_S5x131072_1_0_0_1_n_n.rhsIdx i q 1).val = (i 1).val := by
  unfold DotDims.rhsIdx
  rw [dif_neg (show ¬(1 : Fin S5x131072.rank) ∈ dot_S5x5_S5x131072_S5x131072_1_0_0_1_n_n.rhsBatch by decide), dif_pos (show (1 : Fin S5x131072.rank) ∈ dot_S5x5_S5x131072_S5x131072_1_0_0_1_n_n.rhsNonContracting by decide)]
  rfl
/-- A 5 × 5 weight times a [5, B] activation, at `(p, q)`: the sum over the five hidden units. -/
theorem mm5_apply (lv : FVec Ideal S5x5 .f32) (rv : FVec Ideal S5x131072 .f32) (p : Fin 5) (q : Fin 131072) :
    matmul dot_S5x5_S5x131072_S5x131072_1_0_0_1_n_n none lv rv (constant (F := Ideal) S5x131072 .f32 0x00000000#32) (ix2 p q)
      = ∑ k : Fin 5, lv (ix2 p k) * rv (ix2 k q) := by
  refine (Ideal.matmul_constant_zero_apply dot_S5x5_S5x131072_S5x131072_1_0_0_1_n_n none lv rv (ix2 p q)).trans ?_
  rw [← Equiv.sum_comp (contrEquiv1 dot_S5x5_S5x131072_S5x131072_1_0_0_1_n_n 5 rfl rfl).symm]
  refine Finset.sum_congr rfl fun k _ => ?_
  have hk := contrEquiv1_symm_val dot_S5x5_S5x131072_S5x131072_1_0_0_1_n_n 5 rfl rfl k
  have el : dot_S5x5_S5x131072_S5x131072_1_0_0_1_n_n.lhsIdx (ix2 p q) ((contrEquiv1 dot_S5x5_S5x131072_S5x131072_1_0_0_1_n_n 5 rfl rfl).symm k) = ix2 p k :=
    funext fun a => Fin.ext (by
      match a with
      | ⟨0, _⟩ => exact mm5_lhs0 _ _
      | ⟨1, _⟩ => exact (mm5_lhs1 _ _).trans hk)
  have er : dot_S5x5_S5x131072_S5x131072_1_0_0_1_n_n.rhsIdx (ix2 p q) ((contrEquiv1 dot_S5x5_S5x131072_S5x131072_1_0_0_1_n_n 5 rfl rfl).symm k) = ix2 k q :=
    funext fun a => Fin.ext (by
      match a with
      | ⟨0, _⟩ => exact (mm5_rhs0 _ _).trans hk
      | ⟨1, _⟩ => exact mm5_rhs1 _ _)
  rw [el, er]

theorem mm1_lhs0 (i : S1x131072.Idx) (q : dot_S1x5_S5x131072_S1x131072_1_0_0_1_n_n.contr.Idx) : (dot_S1x5_S5x131072_S1x131072_1_0_0_1_n_n.lhsIdx i q 0).val = (i 0).val := by
  unfold DotDims.lhsIdx
  rw [dif_neg (show ¬(0 : Fin S1x5.rank) ∈ dot_S1x5_S5x131072_S1x131072_1_0_0_1_n_n.lhsBatch by decide), dif_pos (show (0 : Fin S1x5.rank) ∈ dot_S1x5_S5x131072_S1x131072_1_0_0_1_n_n.lhsNonContracting by decide)]
  rfl
theorem mm1_lhs1 (i : S1x131072.Idx) (q : dot_S1x5_S5x131072_S1x131072_1_0_0_1_n_n.contr.Idx) : (dot_S1x5_S5x131072_S1x131072_1_0_0_1_n_n.lhsIdx i q 1).val = (q ⟨0, by decide⟩).val :=
  dot_S1x5_S5x131072_S1x131072_1_0_0_1_n_n.lhsIdx_val_of_single rfl i q
theorem mm1_rhs0 (i : S1x131072.Idx) (q : dot_S1x5_S5x131072_S1x131072_1_0_0_1_n_n.contr.Idx) : (dot_S1x5_S5x131072_S1x131072_1_0_0_1_n_n.rhsIdx i q 0).val = (q ⟨0, by decide⟩).val :=
  dot_S1x5_S5x131072_S1x131072_1_0_0_1_n_n.rhsIdx_val_of_single rfl i q
theorem mm1_rhs1 (i : S1x131072.Idx) (q : dot_S1x5_S5x131072_S1x131072_1_0_0_1_n_n.contr.Idx) : (dot_S1x5_S5x131072_S1x131072_1_0_0_1_n_n.rhsIdx i q 1).val = (i 1).val := by
  unfold DotDims.rhsIdx
  rw [dif_neg (show ¬(1 : Fin S5x131072.rank) ∈ dot_S1x5_S5x131072_S1x131072_1_0_0_1_n_n.rhsBatch by decide), dif_pos (show (1 : Fin S5x131072.rank) ∈ dot_S1x5_S5x131072_S1x131072_1_0_0_1_n_n.rhsNonContracting by decide)]
  rfl
/-- A 1 × 5 weight times a [5, B] activation, at `(p, q)`: the sum over the five hidden units. -/
theorem mm1_apply (lv : FVec Ideal S1x5 .f32) (rv : FVec Ideal S5x131072 .f32) (p : Fin 1) (q : Fin 131072) :
    matmul dot_S1x5_S5x131072_S1x131072_1_0_0_1_n_n none lv rv (constant (F := Ideal) S1x131072 .f32 0x00000000#32) (ix2 p q)
      = ∑ k : Fin 5, lv (ix2 p k) * rv (ix2 k q) := by
  refine (Ideal.matmul_constant_zero_apply dot_S1x5_S5x131072_S1x131072_1_0_0_1_n_n none lv rv (ix2 p q)).trans ?_
  rw [← Equiv.sum_comp (contrEquiv1 dot_S1x5_S5x131072_S1x131072_1_0_0_1_n_n 5 rfl rfl).symm]
  refine Finset.sum_congr rfl fun k _ => ?_
  have hk := contrEquiv1_symm_val dot_S1x5_S5x131072_S1x131072_1_0_0_1_n_n 5 rfl rfl k
  have el : dot_S1x5_S5x131072_S1x131072_1_0_0_1_n_n.lhsIdx (ix2 p q) ((contrEquiv1 dot_S1x5_S5x131072_S1x131072_1_0_0_1_n_n 5 rfl rfl).symm k) = ix2 p k :=
    funext fun a => Fin.ext (by
      match a with
      | ⟨0, _⟩ => exact mm1_lhs0 _ _
      | ⟨1, _⟩ => exact (mm1_lhs1 _ _).trans hk)
  have er : dot_S1x5_S5x131072_S1x131072_1_0_0_1_n_n.rhsIdx (ix2 p q) ((contrEquiv1 dot_S1x5_S5x131072_S1x131072_1_0_0_1_n_n 5 rfl rfl).symm k) = ix2 k q :=
    funext fun a => Fin.ext (by
      match a with
      | ⟨0, _⟩ => exact (mm1_rhs0 _ _).trans hk
      | ⟨1, _⟩ => exact mm1_rhs1 _ _)
  rw [el, er]

/-! ## One layer on one column -/

/-- A layer `max (W · h + bias) zero` at `(j, q)`, given what its three operands read there, is `dense` of column `q`:
    the kernel's products have the weight first, and the product commutes. -/
theorem relu_col {K : ℕ} (mm bias zero : FVec Ideal S5x131072 .f32) (hcol : Fin K → EReal) (W : Fin 5 → Fin K → EReal)
    (b : Fin 5 → EReal) (j : Fin 5) (q : Fin 131072)
    (hd : mm (ix2 j q) = ∑ k, W j k * hcol k) (hb : bias (ix2 j q) = b j) (hz : zero (ix2 j q) = 0) :
    maximumf (addf mm bias) zero (ix2 j q) = MlpSpec.dense hcol W b j := by
  rw [maximumf_apply, addf_apply, hd, hb, hz]
  exact MlpSpec.dense_weight_first hcol W b j

/-- A [1, 5, 5] piece with its unit axis dropped reads `(j, k)` at `(0, j, k)`. -/
theorem dropW (Wv : FVec Ideal S1x5x5 .f32) (j k : Fin 5) :
    shapeCast S5x5 Wv shapeCasts_S1x5x5_S5x5 (ix2 j k) = Wv (ix3 (0 : Fin 1) j k) :=
  shapeCast_apply Wv shapeCasts_S1x5x5_S5x5 (ix2 j k) (ix3 (0 : Fin 1) j k) (by
    rw [Shape.rowMajor_val_three, Shape.rowMajor_val_two]
    show (0 * 5 + j.val) * 5 + k.val = j.val * 5 + k.val
    omega)

/-- A [1, 5, 1] piece with its unit axis dropped reads `(j, 0)` at `(0, j, 0)`. -/
theorem dropB (bv : FVec Ideal S1x5x1 .f32) (j : Fin 5) :
    shapeCast S5x1 bv shapeCasts_S1x5x1_S5x1 (ix2 j (0 : Fin 1)) = bv (ix3 (0 : Fin 1) j (0 : Fin 1)) :=
  shapeCast_apply bv shapeCasts_S1x5x1_S5x1 (ix2 j (0 : Fin 1)) (ix3 (0 : Fin 1) j (0 : Fin 1)) (by
    rw [Shape.rowMajor_val_three, Shape.rowMajor_val_two]
    show (0 * 5 + j.val) * 1 + 0 = j.val * 1 + 0
    omega)

/-! ## The layers as the kernel writes them, and on one column -/

/-- The first layer as the kernel computes it on a block: `max (W · x + b) 0`. -/
def firstT (Wv : FVec Ideal S5x10 .f32) (bv : FVec Ideal S5x1 .f32) (xv : FVec Ideal S10x131072 .f32) : FVec Ideal S5x131072 .f32 :=
  maximumf (addf (matmul dot_S5x10_S10x131072_S5x131072_1_0_0_1_n_n none Wv (shapeCast S10x131072 xv shapeCasts_S10x131072_S10x131072)
        (constant (F := Ideal) S5x131072 .f32 0x00000000#32))
      (broadcastTo S5x131072 (shapeCast S5x1 bv shapeCasts_S5x1_S5x1) broadcasts_S5x1_S5x131072))
    (broadcast S5x131072 (Scalar.ofBits (F := Ideal) .f32 0x00000000#32))

/-- A middle layer as the kernel computes it on a block, from the loaded pieces of `Wmid` and `bmid`. -/
def midT (Wv : FVec Ideal S1x5x5 .f32) (bv : FVec Ideal S1x5x1 .f32) (h : FVec Ideal S5x131072 .f32) : FVec Ideal S5x131072 .f32 :=
  maximumf (addf (matmul dot_S5x5_S5x131072_S5x131072_1_0_0_1_n_n none (shapeCast S5x5 Wv shapeCasts_S1x5x5_S5x5) h
        (constant (F := Ideal) S5x131072 .f32 0x00000000#32))
      (broadcastTo S5x131072 (shapeCast S5x1 bv shapeCasts_S1x5x1_S5x1) broadcasts_S5x1_S5x131072))
    (broadcast S5x131072 (Scalar.ofBits (F := Ideal) .f32 0x00000000#32))

/-- The last layer as the kernel computes it on a block: `W · h` plus the scalar bias, no maximum. -/
def lastT (Wv : FVec Ideal S1x5 .f32) (bv : FVec Ideal S1x1 .f32) (h : FVec Ideal S5x131072 .f32) : FVec Ideal S1x131072 .f32 :=
  addf (matmul dot_S1x5_S5x131072_S1x131072_1_0_0_1_n_n none Wv h (constant (F := Ideal) S1x131072 .f32 0x00000000#32))
    (broadcast S1x131072 (extractAt ![0, 0] bv inpos_S1x1_p0_0))

/-- The first layer of a sample, from the kernel's operands: the bias is entry `(j, 0)` of a column. -/
def kfirst (Wv : FVec Ideal S5x10 .f32) (bv : FVec Ideal S5x1 .f32) (xcol : Fin 10 → EReal) : Fin 5 → EReal :=
  MlpSpec.dense xcol (fun j k => Wv (ix2 j k)) (fun j => bv (ix2 j (0 : Fin 1)))

/-- A middle layer of a sample, from the kernel's loaded pieces. -/
def kmid (Wv : FVec Ideal S1x5x5 .f32) (bv : FVec Ideal S1x5x1 .f32) (h : Fin 5 → EReal) : Fin 5 → EReal :=
  MlpSpec.dense h (fun j k => Wv (ix3 (0 : Fin 1) j k)) (fun j => bv (ix3 (0 : Fin 1) j (0 : Fin 1)))

/-- The last layer of a sample, from the kernel's operands. -/
def klast (Wv : FVec Ideal S1x5 .f32) (bv : FVec Ideal S1x1 .f32) (h : Fin 5 → EReal) : EReal :=
  MlpSpec.affine h (fun k => Wv (ix2 (0 : Fin 1) k)) (bv (ix2 (0 : Fin 1) (0 : Fin 1)))

/-- Column `q` of the first layer is the first layer of column `q`. -/
theorem firstT_col (Wv : FVec Ideal S5x10 .f32) (bv : FVec Ideal S5x1 .f32) (xv : FVec Ideal S10x131072 .f32) (q : Fin 131072) :
    (fun j : Fin 5 => firstT Wv bv xv (ix2 j q)) = kfirst Wv bv (fun k : Fin 10 => xv (ix2 k q)) := by
  funext j
  unfold firstT kfirst
  refine relu_col _ _ _ _ _ _ j q ?_ ?_ ?_
  · rw [mm10_apply, shapeCast_self]
  · refine (broadcastTo_a1_ab_apply _ broadcasts_S5x1_S5x131072 j q).trans ?_
    rw [shapeCast_self]
  · exact Ideal.ofBits_zero_f32

/-- Column `q` of a middle layer is the middle layer of column `q`. -/
theorem midT_col (Wv : FVec Ideal S1x5x5 .f32) (bv : FVec Ideal S1x5x1 .f32) (h : FVec Ideal S5x131072 .f32) (q : Fin 131072) :
    (fun j : Fin 5 => midT Wv bv h (ix2 j q)) = kmid Wv bv (fun k : Fin 5 => h (ix2 k q)) := by
  funext j
  unfold midT kmid
  refine relu_col _ _ _ _ _ _ j q ?_ ?_ ?_
  · rw [mm5_apply]
    refine Finset.sum_congr rfl fun k _ => ?_
    exact congrArg (· * h (ix2 k q)) (dropW Wv j k)
  · refine (broadcastTo_a1_ab_apply _ broadcasts_S5x1_S5x131072 j q).trans ?_
    exact dropB bv j
  · exact Ideal.ofBits_zero_f32

/-- Entry `(0, q)` of the last layer is the last layer of column `q`. -/
theorem lastT_col (Wv : FVec Ideal S1x5 .f32) (bv : FVec Ideal S1x1 .f32) (h : FVec Ideal S5x131072 .f32) (q : Fin 131072) :
    lastT Wv bv h (ix2 (0 : Fin 1) q) = klast Wv bv (fun k : Fin 5 => h (ix2 k q)) := by
  have hb : extractAt ![0, 0] bv inpos_S1x1_p0_0 = bv (ix2 (0 : Fin 1) (0 : Fin 1)) := by
    unfold extractAt
    exact congrArg bv (funext fun a => Fin.ext (by
      match a with
      | ⟨0, _⟩ => rfl
      | ⟨1, _⟩ => rfl))
  unfold lastT klast
  rw [addf_apply, mm1_apply, broadcast_apply, hb]
  exact MlpSpec.affine_weight_first _ _ _

/-! ## The body's one store -/

/-- The value the body stores is the ten layers composed, on the loaded block and pieces. -/
theorem payload_eq (v0 : FVec Ideal S10x131072 .f32) (v2 : FVec Ideal S5x10 .f32) (v3 : FVec Ideal S5x1 .f32)
    (v10 : FVec Ideal S1x5x5 .f32) (v19 : FVec Ideal S1x5x5 .f32) (v28 : FVec Ideal S1x5x5 .f32) (v37 : FVec Ideal S1x5x5 .f32) (v46 : FVec Ideal S1x5x5 .f32) (v55 : FVec Ideal S1x5x5 .f32) (v64 : FVec Ideal S1x5x5 .f32) (v73 : FVec Ideal S1x5x5 .f32)
    (v12 : FVec Ideal S1x5x1 .f32) (v21 : FVec Ideal S1x5x1 .f32) (v30 : FVec Ideal S1x5x1 .f32) (v39 : FVec Ideal S1x5x1 .f32) (v48 : FVec Ideal S1x5x1 .f32) (v57 : FVec Ideal S1x5x1 .f32) (v66 : FVec Ideal S1x5x1 .f32) (v75 : FVec Ideal S1x5x1 .f32)
    (v82 : FVec Ideal S1x5 .f32) (v83 : FVec Ideal S1x1 .f32) :
    k0_pay1 (F := Ideal) (k0_pay4 (k0_pay2 v0 v2 v3 v10 v12 v19 v21) (k0_pay3 v28) v30 v37 v39 v46 v48 v55 v57) (k0_pay5 (F := Ideal)) v64 v66 v73 v75 v82 v83
      = lastT v82 v83 (midT v73 v75 (midT v64 v66 (midT v55 v57 (midT v46 v48 (midT v37 v39 (midT v28 v30 (midT v19 v21 (midT v10 v12 (firstT v2 v3 v0))))))))) := rfl

/-- Entry `(0, q)` of the stored value is the network on column `q` of the loaded block. -/
theorem payload_col (v0 : FVec Ideal S10x131072 .f32) (v2 : FVec Ideal S5x10 .f32) (v3 : FVec Ideal S5x1 .f32)
    (v10 : FVec Ideal S1x5x5 .f32) (v19 : FVec Ideal S1x5x5 .f32) (v28 : FVec Ideal S1x5x5 .f32) (v37 : FVec Ideal S1x5x5 .f32) (v46 : FVec Ideal S1x5x5 .f32) (v55 : FVec Ideal S1x5x5 .f32) (v64 : FVec Ideal S1x5x5 .f32) (v73 : FVec Ideal S1x5x5 .f32)
    (v12 : FVec Ideal S1x5x1 .f32) (v21 : FVec Ideal S1x5x1 .f32) (v30 : FVec Ideal S1x5x1 .f32) (v39 : FVec Ideal S1x5x1 .f32) (v48 : FVec Ideal S1x5x1 .f32) (v57 : FVec Ideal S1x5x1 .f32) (v66 : FVec Ideal S1x5x1 .f32) (v75 : FVec Ideal S1x5x1 .f32)
    (v82 : FVec Ideal S1x5 .f32) (v83 : FVec Ideal S1x1 .f32) (q : Fin 131072) :
    k0_pay1 (F := Ideal) (k0_pay4 (k0_pay2 v0 v2 v3 v10 v12 v19 v21) (k0_pay3 v28) v30 v37 v39 v46 v48 v55 v57) (k0_pay5 (F := Ideal)) v64 v66 v73 v75 v82 v83 (ix2 (0 : Fin 1) q)
      = klast v82 v83 (kmid v73 v75 (kmid v64 v66 (kmid v55 v57 (kmid v46 v48 (kmid v37 v39 (kmid v28 v30 (kmid v19 v21 (kmid v10 v12 (kfirst v2 v3 (fun k : Fin 10 => v0 (ix2 k q))))))))))) := by
  rw [payload_eq, lastT_col, midT_col, midT_col, midT_col, midT_col, midT_col, midT_col, midT_col, midT_col, firstT_col]

end Cert.KerValue

end
-- ==== Proof.KerBlock.lean ====
/-
  From the blocks the kernel writes to the whole result array, and through the reshape that follows the region.

  Before the region the host transposes `x` to [10, N], so that sample `n` is column `n`, and reshapes the three biases to
  columns. The grid has 32 points; point `t` is handed columns `131072·t … 131072·t + 131071` of the transposed input, all
  of every weight and bias, and writes back the same columns of a [1, N] array. So entry `(0, n)` of that array is the
  network on sample `n`, every column lies in exactly the block of point `n / 131072`, and the final reshape to [N, 1]
  keeps the row-major position: entry `(n, 0)` of the result is entry `(0, n)` of the array.
-/
import proofs.«169064_j71399536328822_2_alg».proof.Proof.Gen.KernelIdeal.Frame
import proofs.«169064_j71399536328822_2_alg».proof.Proof.KerLayer
import Idealize.ShloMosaic.Lib.Pipeline.Value
import Idealize.ShloMosaic.Lib.StableHlo.Run
import Idealize.ShloMosaic.Lib.Tactic

noncomputable section

open Idealize.ShloMosaic Idealize.ShloMosaic.TcCoe Idealize.SL.Sem
open Idealize.ShloMosaic.Pipeline (Dat)

namespace Cert.KerValue

open Cert.KernelIdeal Cert.KernelIdeal.Gen
open Idealize.ShloMosaic.ValueIdx Idealize.ShloMosaic.ColumnLayout

variable (m : (ℓ : Loc nD τ sig) → Buf (Elt Ideal) ℓ) (ρ : Dev nD → PrngReg)

/-! ## What the host prepares before the region -/

/-- The transposed input: entry `(k, n)` is feature `k` of sample `n`. -/
theorem entry_xT (c : Dev nD) (k : Fin 10) (n : Fin 4194304) :
    (V m c main_v0 : FVec Ideal S10x4194304 .f32) (ix2 k n) = (m ((c : Thread nD τ).loc main_arg0) : FVec Ideal S4194304x10 .f32) (ix2 n k) := by
  have e : (V m c main_v0 : FVec Ideal S10x4194304 .f32)
      = transpose S10x4194304 [1, 0] (m ((c : Thread nD τ).loc main_arg0) : FVec Ideal S4194304x10 .f32) transposes_S4194304x10_S10x4194304_1_0 := by
    show StableHlo.after hostOps0 (fun b => m (c, b)) (Proc.devRef .tc main_v0) = _
    after_results <;> rfl
  rw [e]
  exact transpose_apply [1, 0] _ transposes_S4194304x10_S10x4194304_1_0 (ix2 k n) (ix2 n k) (fun b => match b with
    | ⟨0, _⟩ => rfl
    | ⟨1, _⟩ => rfl)

/-- The first bias as a column: entry `(j, 0)` is `b1[j]`. -/
theorem entry_b1 (c : Dev nD) (j : Fin 5) :
    (V m c main_v1 : FVec Ideal S5x1 .f32) (ix2 j (0 : Fin 1)) = (m ((c : Thread nD τ).loc main_arg2) : FVec Ideal S5 .f32) (ix1 j) := by
  have e : (V m c main_v1 : FVec Ideal S5x1 .f32)
      = shapeCast S5x1 (m ((c : Thread nD τ).loc main_arg2) : FVec Ideal S5 .f32) shapeCasts_S5_S5x1 := by
    show StableHlo.after hostOps0 (fun b => m (c, b)) (Proc.devRef .tc main_v1) = _
    after_results <;> rfl
  rw [e]
  exact shapeCast_a_a1_apply _ shapeCasts_S5_S5x1 j 0

/-- The middle biases as columns: entry `(l, j, 0)` is `bmid[l, j]`. -/
theorem entry_bmid (c : Dev nD) (l : Fin 8) (j : Fin 5) :
    (V m c main_v2 : FVec Ideal S8x5x1 .f32) (ix3 l j (0 : Fin 1)) = (m ((c : Thread nD τ).loc main_arg4) : FVec Ideal S8x5 .f32) (ix2 l j) := by
  have e : (V m c main_v2 : FVec Ideal S8x5x1 .f32)
      = shapeCast S8x5x1 (m ((c : Thread nD τ).loc main_arg4) : FVec Ideal S8x5 .f32) shapeCasts_S8x5_S8x5x1 := by
    show StableHlo.after hostOps0 (fun b => m (c, b)) (Proc.devRef .tc main_v2) = _
    after_results <;> rfl
  rw [e]
  exact shapeCast_apply _ shapeCasts_S8x5_S8x5x1 (ix3 l j (0 : Fin 1)) (ix2 l j) (by
    rw [Shape.rowMajor_val_three, Shape.rowMajor_val_two]
    show l.val * 5 + j.val = (l.val * 5 + j.val) * 1 + 0
    omega)

/-- The last bias as a 1 × 1 array. -/
theorem entry_b10 (c : Dev nD) :
    (V m c main_v3 : FVec Ideal S1x1 .f32) (ix2 (0 : Fin 1) (0 : Fin 1)) = (m ((c : Thread nD τ).loc main_arg6) : FVec Ideal S1 .f32) (ix1 (0 : Fin 1)) := by
  have e : (V m c main_v3 : FVec Ideal S1x1 .f32)
      = shapeCast S1x1 (m ((c : Thread nD τ).loc main_arg6) : FVec Ideal S1 .f32) shapeCasts_S1_S1x1 := by
    show StableHlo.after hostOps0 (fun b => m (c, b)) (Proc.devRef .tc main_v3) = _
    after_results <;> rfl
  rw [e]
  exact shapeCast_a_a1_apply _ shapeCasts_S1_S1x1 0 0

/-! ## Which block each window hands a grid point -/

/-- The printed index maps, decided over the 32 points: the input and the output move with the point along the samples,
    every weight and bias is block 0 throughout. -/
theorem idx_facts : ∀ t : Fin cfg0.N,
    win0_0.index t (0 : Fin 2) = 0 ∧ win0_0.index t (1 : Fin 2) = t.val
    ∧ win0_1.index t (0 : Fin 2) = 0 ∧ win0_1.index t (1 : Fin 2) = 0
    ∧ win0_2.index t (0 : Fin 2) = 0 ∧ win0_2.index t (1 : Fin 2) = 0
    ∧ win0_3.index t (0 : Fin 3) = 0 ∧ win0_3.index t (1 : Fin 3) = 0 ∧ win0_3.index t (2 : Fin 3) = 0
    ∧ win0_4.index t (0 : Fin 3) = 0 ∧ win0_4.index t (1 : Fin 3) = 0 ∧ win0_4.index t (2 : Fin 3) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = t.val :=
  (by decide +kernel : ∀ t : Fin grid0.N, _)

/-! ## The input windows' blocks, read -/

/-- The input block of point `t`: entry `(k, q)` is feature `k` of sample `131072·t + q`. -/
theorem blk_x (c : Dev nD) (t : Fin cfg0.N) (k : Fin 10) (q : Fin 131072) (n : Fin 4194304) (hn : n.val = t.val * 131072 + q.val) :
    (iblk m c 0 t : FVec Ideal S10x131072 .f32) (ix2 k q) = (m ((c : Thread nD τ).loc main_arg0) : FVec Ideal S4194304x10 .f32) (ix2 n k) := by
  obtain ⟨e00, e01, e10, e11, e20, e21, e30, e31, e32, e40, e41, e42, e50, e51, e60, e61, e70, e71⟩ := idx_facts t
  unfold iblk
  rw [View.read_apply]
  show (V m c main_v0 : FVec Ideal S10x4194304 .f32) _ = _
  refine Eq.trans (congrArg (V m c main_v0 : FVec Ideal S10x4194304 .f32) ?_) (entry_xT m c k n)
  funext a
  apply Fin.ext
  match a with
  | ⟨0, _⟩ => show win0_0.index t (0 : Fin 2) * 10 + 1 * k.val = k.val; rw [e00]; omega
  | ⟨1, _⟩ => show win0_0.index t (1 : Fin 2) * 131072 + 1 * q.val = n.val; rw [e01, hn]; omega

/-- The first weight's window is the whole array at every point. -/
theorem blk_W1 (c : Dev nD) (t : Fin cfg0.N) (y : S5x10.Idx) :
    (iblk m c 1 t : FVec Ideal S5x10 .f32) y = (m ((c : Thread nD τ).loc main_arg1) : FVec Ideal S5x10 .f32) y := by
  obtain ⟨e00, e01, e10, e11, e20, e21, e30, e31, e32, e40, e41, e42, e50, e51, e60, e61, e70, e71⟩ := idx_facts t
  unfold iblk
  rw [View.read_apply]
  show (V m c main_arg1 : FVec Ideal S5x10 .f32) _ = _
  rw [V_main_arg1 m c]
  refine congrArg (m ((c : Thread nD τ).loc main_arg1) : FVec Ideal S5x10 .f32) ?_
  funext a
  apply Fin.ext
  match a with
  | ⟨0, _⟩ => show win0_1.index t (0 : Fin 2) * 5 + 1 * (y 0).val = (y 0).val; rw [e10]; omega
  | ⟨1, _⟩ => show win0_1.index t (1 : Fin 2) * 10 + 1 * (y 1).val = (y 1).val; rw [e11]; omega

/-- The middle weights' window is the whole array at every point. -/
theorem blk_Wmid (c : Dev nD) (t : Fin cfg0.N) (y : S8x5x5.Idx) :
    (iblk m c 3 t : FVec Ideal S8x5x5 .f32) y = (m ((c : Thread nD τ).loc main_arg3) : FVec Ideal S8x5x5 .f32) y := by
  obtain ⟨e00, e01, e10, e11, e20, e21, e30, e31, e32, e40, e41, e42, e50, e51, e60, e61, e70, e71⟩ := idx_facts t
  unfold iblk
  rw [View.read_apply]
  show (V m c main_arg3 : FVec Ideal S8x5x5 .f32) _ = _
  rw [V_main_arg3 m c]
  refine congrArg (m ((c : Thread nD τ).loc main_arg3) : FVec Ideal S8x5x5 .f32) ?_
  funext a
  apply Fin.ext
  match a with
  | ⟨0, _⟩ => show win0_3.index t (0 : Fin 3) * 8 + 1 * (y 0).val = (y 0).val; rw [e30]; omega
  | ⟨1, _⟩ => show win0_3.index t (1 : Fin 3) * 5 + 1 * (y 1).val = (y 1).val; rw [e31]; omega
  | ⟨2, _⟩ => show win0_3.index t (2 : Fin 3) * 5 + 1 * (y 2).val = (y 2).val; rw [e32]; omega

/-- The last weight's window is the whole array at every point. -/
theorem blk_W10 (c : Dev nD) (t : Fin cfg0.N) (y : S1x5.Idx) :
    (iblk m c 5 t : FVec Ideal S1x5 .f32) y = (m ((c : Thread nD τ).loc main_arg5) : FVec Ideal S1x5 .f32) y := by
  obtain ⟨e00, e01, e10, e11, e20, e21, e30, e31, e32, e40, e41, e42, e50, e51, e60, e61, e70, e71⟩ := idx_facts t
  unfold iblk
  rw [View.read_apply]
  show (V m c main_arg5 : FVec Ideal S1x5 .f32) _ = _
  rw [V_main_arg5 m c]
  refine congrArg (m ((c : Thread nD τ).loc main_arg5) : FVec Ideal S1x5 .f32) ?_
  funext a
  apply Fin.ext
  match a with
  | ⟨0, _⟩ => show win0_5.index t (0 : Fin 2) * 1 + 1 * (y 0).val = (y 0).val; rw [e50]; omega
  | ⟨1, _⟩ => show win0_5.index t (1 : Fin 2) * 5 + 1 * (y 1).val = (y 1).val; rw [e51]; omega

/-- The first bias's window at every point: entry `(j, 0)` is `b1[j]`. -/
theorem blk_b1 (c : Dev nD) (t : Fin cfg0.N) (j : Fin 5) :
    (iblk m c 2 t : FVec Ideal S5x1 .f32) (ix2 j (0 : Fin 1)) = (m ((c : Thread nD τ).loc main_arg2) : FVec Ideal S5 .f32) (ix1 j) := by
  obtain ⟨e00, e01, e10, e11, e20, e21, e30, e31, e32, e40, e41, e42, e50, e51, e60, e61, e70, e71⟩ := idx_facts t
  unfold iblk
  rw [View.read_apply]
  show (V m c main_v1 : FVec Ideal S5x1 .f32) _ = _
  refine Eq.trans (congrArg (V m c main_v1 : FVec Ideal S5x1 .f32) ?_) (entry_b1 m c j)
  funext a
  apply Fin.ext
  match a with
  | ⟨0, _⟩ => show win0_2.index t (0 : Fin 2) * 5 + 1 * j.val = j.val; rw [e20]; omega
  | ⟨1, _⟩ => show win0_2.index t (1 : Fin 2) * 1 + 1 * 0 = 0; rw [e21]

/-- The middle biases' window at every point: entry `(l, j, 0)` is `bmid[l, j]`. -/
theorem blk_bmid (c : Dev nD) (t : Fin cfg0.N) (l : Fin 8) (j : Fin 5) :
    (iblk m c 4 t : FVec Ideal S8x5x1 .f32) (ix3 l j (0 : Fin 1)) = (m ((c : Thread nD τ).loc main_arg4) : FVec Ideal S8x5 .f32) (ix2 l j) := by
  obtain ⟨e00, e01, e10, e11, e20, e21, e30, e31, e32, e40, e41, e42, e50, e51, e60, e61, e70, e71⟩ := idx_facts t
  unfold iblk
  rw [View.read_apply]
  show (V m c main_v2 : FVec Ideal S8x5x1 .f32) _ = _
  refine Eq.trans (congrArg (V m c main_v2 : FVec Ideal S8x5x1 .f32) ?_) (entry_bmid m c l j)
  funext a
  apply Fin.ext
  match a with
  | ⟨0, _⟩ => show win0_4.index t (0 : Fin 3) * 8 + 1 * l.val = l.val; rw [e40]; omega
  | ⟨1, _⟩ => show win0_4.index t (1 : Fin 3) * 5 + 1 * j.val = j.val; rw [e41]; omega
  | ⟨2, _⟩ => show win0_4.index t (2 : Fin 3) * 1 + 1 * 0 = 0; rw [e42]

/-- The last bias's window at every point. -/
theorem blk_b10 (c : Dev nD) (t : Fin cfg0.N) :
    (iblk m c 6 t : FVec Ideal S1x1 .f32) (ix2 (0 : Fin 1) (0 : Fin 1)) = (m ((c : Thread nD τ).loc main_arg6) : FVec Ideal S1 .f32) (ix1 (0 : Fin 1)) := by
  obtain ⟨e00, e01, e10, e11, e20, e21, e30, e31, e32, e40, e41, e42, e50, e51, e60, e61, e70, e71⟩ := idx_facts t
  unfold iblk
  rw [View.read_apply]
  show (V m c main_v3 : FVec Ideal S1x1 .f32) _ = _
  refine Eq.trans (congrArg (V m c main_v3 : FVec Ideal S1x1 .f32) ?_) (entry_b10 m c)
  funext a
  apply Fin.ext
  match a with
  | ⟨0, _⟩ => show win0_6.index t (0 : Fin 2) * 1 + 1 * 0 = 0; rw [e60]
  | ⟨1, _⟩ => show win0_6.index t (1 : Fin 2) * 1 + 1 * 0 = 0; rw [e61]

/-! ## What the body leaves in the output buffer, entry by entry -/

theorem hz2 : (![0, 0] : Fin 2 → Nat) = fun _ => 0 := funext fun a => by fin_cases a <;> rfl

/-- The load of slab `o` of the middle weights reads `(0, j, k)` at `(o, j, k)`. -/
theorem ld_Wpiece (X : Vec Ideal S8x5x5 .f32) (o : ℕ) (ho : o < 8)
    (inb : ∀ a, (![o, 0, 0] : Fin 3 → Nat) a + S1x5x5.size a ≤ S8x5x5.size a) (j k : Fin 5) :
    View.ld (Val := Elt Ideal) X (Rect.unit (s := S8x5x5) ![o, 0, 0] S1x5x5.size inb) (ix3 (0 : Fin 1) j k) = X (ix3 (⟨o, ho⟩ : Fin 8) j k) := by
  refine congrArg X (funext fun a => Fin.ext ?_)
  match a with
  | ⟨0, _⟩ => show o + 1 * 0 = o; omega
  | ⟨1, _⟩ => show 0 + 1 * j.val = j.val; omega
  | ⟨2, _⟩ => show 0 + 1 * k.val = k.val; omega

/-- The load of column `o` of the middle biases reads `(0, j, 0)` at `(o, j, 0)`. -/
theorem ld_Bpiece (X : Vec Ideal S8x5x1 .f32) (o : ℕ) (ho : o < 8)
    (inb : ∀ a, (![o, 0, 0] : Fin 3 → Nat) a + S1x5x1.size a ≤ S8x5x1.size a) (j : Fin 5) :
    View.ld (Val := Elt Ideal) X (Rect.unit (s := S8x5x1) ![o, 0, 0] S1x5x1.size inb) (ix3 (0 : Fin 1) j (0 : Fin 1))
      = X (ix3 (⟨o, ho⟩ : Fin 8) j (0 : Fin 1)) := by
  refine congrArg X (funext fun a => Fin.ext ?_)
  match a with
  | ⟨0, _⟩ => show o + 1 * 0 = o; omega
  | ⟨1, _⟩ => show 0 + 1 * j.val = j.val; omega
  | ⟨2, _⟩ => show 0 + 1 * 0 = 0; omega

/-- The kernel's first layer of a sample is the specification's, once the bias column is read as `b1`. -/
theorem kfirst_eq (x1 : FVec Ideal S5x10 .f32) (x2 : FVec Ideal S5x1 .f32) (A2 : FVec Ideal S5 .f32)
    (h2 : ∀ j : Fin 5, x2 (ix2 j (0 : Fin 1)) = A2 (ix1 j)) (xcol : Fin 10 → EReal) :
    kfirst x1 x2 xcol = MlpSpec.first x1 A2 xcol := by
  unfold kfirst MlpSpec.first
  rw [show (fun j : Fin 5 => x2 (ix2 j (0 : Fin 1))) = fun j => A2 (ix1 j) from funext h2]

/-- The kernel's middle layer `o` of a sample, from the pieces it loads, is the specification's. -/
theorem kmid_eq (x3 : Vec Ideal S8x5x5 .f32) (x4 : Vec Ideal S8x5x1 .f32) (A4 : FVec Ideal S8x5 .f32)
    (h4 : ∀ (l : Fin 8) (j : Fin 5), x4 (ix3 l j (0 : Fin 1)) = A4 (ix2 l j)) (o : ℕ) (ho : o < 8)
    (inbW : ∀ a, (![o, 0, 0] : Fin 3 → Nat) a + S1x5x5.size a ≤ S8x5x5.size a)
    (inbB : ∀ a, (![o, 0, 0] : Fin 3 → Nat) a + S1x5x1.size a ≤ S8x5x1.size a) (h : Fin 5 → EReal) :
    kmid (View.ld (Val := Elt Ideal) x3 (Rect.unit (s := S8x5x5) ![o, 0, 0] S1x5x5.size inbW))
        (View.ld (Val := Elt Ideal) x4 (Rect.unit (s := S8x5x1) ![o, 0, 0] S1x5x1.size inbB)) h
      = MlpSpec.mid x3 A4 ⟨o, ho⟩ h := by
  unfold kmid MlpSpec.mid
  rw [show (fun j k : Fin 5 => View.ld (Val := Elt Ideal) x3 (Rect.unit (s := S8x5x5) ![o, 0, 0] S1x5x5.size inbW) (ix3 (0 : Fin 1) j k))
        = fun j k => x3 (ix3 (⟨o, ho⟩ : Fin 8) j k) from funext fun j => funext fun k => ld_Wpiece x3 o ho inbW j k,
    show (fun j : Fin 5 => View.ld (Val := Elt Ideal) x4 (Rect.unit (s := S8x5x1) ![o, 0, 0] S1x5x1.size inbB) (ix3 (0 : Fin 1) j (0 : Fin 1)))
        = fun j => A4 (ix2 (⟨o, ho⟩ : Fin 8) j) from funext fun j => (ld_Bpiece x4 o ho inbB j).trans (h4 _ j)]

/-- The kernel's last layer of a sample is the specification's, once the 1 × 1 bias is read as `b10`. -/
theorem klast_eq (x5 : FVec Ideal S1x5 .f32) (x6 : FVec Ideal S1x1 .f32) (A6 : FVec Ideal S1 .f32)
    (h6 : x6 (ix2 (0 : Fin 1) (0 : Fin 1)) = A6 (ix1 (0 : Fin 1))) (h : Fin 5 → EReal) :
    klast x5 x6 h = MlpSpec.last x5 A6 h := by
  unfold klast MlpSpec.last
  rw [h6]

/-- Entry `(0, q)` of what the body leaves in the output buffer is the network on the sample under it: the blocks are
    variables here, with what is known of their entries as hypotheses (the input block holds samples `base + q`). -/
theorem out_value (x0 : Vec Ideal S10x131072 .f32) (x1 : Vec Ideal S5x10 .f32) (x2 : Vec Ideal S5x1 .f32)
    (x3 : Vec Ideal S8x5x5 .f32) (x4 : Vec Ideal S8x5x1 .f32) (x5 : Vec Ideal S1x5 .f32) (x6 : Vec Ideal S1x1 .f32)
    (A0 : FVec Ideal S4194304x10 .f32) (A1 : FVec Ideal S5x10 .f32) (A2 : FVec Ideal S5 .f32) (A3 : FVec Ideal S8x5x5 .f32)
    (A4 : FVec Ideal S8x5 .f32) (A5 : FVec Ideal S1x5 .f32) (A6 : FVec Ideal S1 .f32) (base : ℕ)
    (h0 : ∀ (k : Fin 10) (q : Fin 131072) (n : Fin 4194304), n.val = base + q.val → x0 (ix2 k q) = A0 (ix2 n k))
    (h1 : ∀ y : S5x10.Idx, x1 y = A1 y)
    (h2 : ∀ j : Fin 5, x2 (ix2 j (0 : Fin 1)) = A2 (ix1 j))
    (h3 : ∀ y : S8x5x5.Idx, x3 y = A3 y)
    (h4 : ∀ (l : Fin 8) (j : Fin 5), x4 (ix3 l j (0 : Fin 1)) = A4 (ix2 l j))
    (h5 : ∀ y : S1x5.Idx, x5 y = A5 y)
    (h6 : x6 (ix2 (0 : Fin 1) (0 : Fin 1)) = A6 (ix1 (0 : Fin 1)))
    (q : Fin 131072) (n : Fin 4194304) (hn : n.val = base + q.val) :
    out0_7 (F := Ideal) x0 x1 x2 x3 x4 x5 x6 (ix2 (0 : Fin 1) q) = MlpSpec.net A1 A2 A3 A4 A5 A6 (fun k : Fin 10 => A0 (ix2 n k)) := by
  obtain rfl : x1 = A1 := funext h1
  obtain rfl : x3 = A3 := funext h3
  obtain rfl : x5 = A5 := funext h5
  unfold out0_7
  rw [View.canon_unit_zero hz2, payload_col]
  simp only [View.ld_unit_zero (S := S10x131072) hz2, View.ld_unit_zero (S := S5x10) hz2, View.ld_unit_zero (S := S5x1) hz2,
    View.ld_unit_zero (S := S1x5) hz2, View.ld_unit_zero (S := S1x1) hz2]
  rw [klast_eq x5 x6 A6 h6, kmid_eq x3 x4 A4 h4 7 (by decide), kmid_eq x3 x4 A4 h4 6 (by decide), kmid_eq x3 x4 A4 h4 5 (by decide), kmid_eq x3 x4 A4 h4 4 (by decide), kmid_eq x3 x4 A4 h4 3 (by decide), kmid_eq x3 x4 A4 h4 2 (by decide), kmid_eq x3 x4 A4 h4 1 (by decide), kmid_eq x3 x4 A4 h4 0 (by decide), kfirst_eq x1 x2 A2 h2,
    show (fun k : Fin 10 => View.ld (Val := Elt Ideal) x0 r0_0 (ix2 k q)) = fun k => A0 (ix2 n k) from funext fun k =>
      (congrFun (View.ld_unit_zero (S := S10x131072) hz2 inb_S10x131072_S10x131072_0_0 x0) (ix2 k q)).trans (h0 k q n hn)]
  rfl

/-! ## The array the region leaves, and the result after the reshape -/

/-- The [1, N] array the region should leave: entry `(0, n)` is the network on sample `n`. -/
abbrev rowResult (c : Dev nD) : S1x4194304.Idx → Elt Ideal .f32 := fun i =>
  MlpSpec.net (m ((c : Thread nD τ).loc main_arg1) : FVec Ideal S5x10 .f32) (m ((c : Thread nD τ).loc main_arg2) : FVec Ideal S5 .f32)
    (m ((c : Thread nD τ).loc main_arg3) : FVec Ideal S8x5x5 .f32) (m ((c : Thread nD τ).loc main_arg4) : FVec Ideal S8x5 .f32)
    (m ((c : Thread nD τ).loc main_arg5) : FVec Ideal S1x5 .f32) (m ((c : Thread nD τ).loc main_arg6) : FVec Ideal S1 .f32)
    (fun k : Fin 10 => (m ((c : Thread nD τ).loc main_arg0) : FVec Ideal S4194304x10 .f32) (ix2 (⟨(i 1).val, (i 1).isLt⟩ : Fin 4194304) k))

/-- What point `t` writes back is block `t` of that array: its columns are samples `131072·t … 131072·t + 131071`. -/
theorem flushed_eq (c : Dev nD) (t : Fin cfg0.N) :
    (dats m 0 c).flushed 7 t = ((cfg0.win 7).blk t).view.read (Elt Ideal) (rowResult m c) := by
  obtain ⟨e00, e01, e10, e11, e20, e21, e30, e31, e32, e40, e41, e42, e50, e51, e60, e61, e70, e71⟩ := idx_facts t
  have hN : cfg0.N = 32 := N_0
  have ht : t.val < 32 := hN ▸ t.isLt
  show (cfg0.win 7).cut (grid0.coords t) ((dats m 0 c).after 7 t) = _
  rw [after0_7]
  funext y
  have hy0 : (y 0).val < 1 := (y 0).isLt
  have hy1 : (y 1).val < 131072 := (y 1).isLt
  have hy : (y : S1x131072.Idx) = ix2 (0 : Fin 1) (⟨(y 1).val, hy1⟩ : Fin 131072) := funext fun a => Fin.ext (by
    match a with
    | ⟨0, _⟩ => show (y 0).val = 0; omega
    | ⟨1, _⟩ => rfl)
  have hn : t.val * 131072 + (y 1).val < 4194304 := by omega
  show out0_7 (F := Ideal) (iblk m c 0 t) (iblk m c 1 t) (iblk m c 2 t) (iblk m c 3 t) (iblk m c 4 t) (iblk m c 5 t) (iblk m c 6 t) y = rowResult m c (((cfg0.win 7).blk t).view.emb y)
  refine Eq.trans (congrArg (out0_7 (F := Ideal) (iblk m c 0 t) (iblk m c 1 t) (iblk m c 2 t) (iblk m c 3 t) (iblk m c 4 t) (iblk m c 5 t) (iblk m c 6 t)) hy) ?_
  refine Eq.trans (out_value (iblk m c 0 t) (iblk m c 1 t) (iblk m c 2 t) (iblk m c 3 t) (iblk m c 4 t) (iblk m c 5 t) (iblk m c 6 t)
    (m ((c : Thread nD τ).loc main_arg0) : FVec Ideal S4194304x10 .f32) (m ((c : Thread nD τ).loc main_arg1) : FVec Ideal S5x10 .f32) (m ((c : Thread nD τ).loc main_arg2) : FVec Ideal S5 .f32) (m ((c : Thread nD τ).loc main_arg3) : FVec Ideal S8x5x5 .f32)
    (m ((c : Thread nD τ).loc main_arg4) : FVec Ideal S8x5 .f32) (m ((c : Thread nD τ).loc main_arg5) : FVec Ideal S1x5 .f32) (m ((c : Thread nD τ).loc main_arg6) : FVec Ideal S1 .f32) (t.val * 131072)
    (fun k q n h => blk_x m c t k q n h) (blk_W1 m c t) (blk_b1 m c t) (blk_Wmid m c t) (blk_bmid m c t) (blk_W10 m c t) (blk_b10 m c t)
    (⟨(y 1).val, hy1⟩ : Fin 131072) (⟨t.val * 131072 + (y 1).val, hn⟩ : Fin 4194304) rfl) ?_
  refine congrArg (fun n : Fin 4194304 => MlpSpec.net (m ((c : Thread nD τ).loc main_arg1) : FVec Ideal S5x10 .f32) (m ((c : Thread nD τ).loc main_arg2) : FVec Ideal S5 .f32)
    (m ((c : Thread nD τ).loc main_arg3) : FVec Ideal S8x5x5 .f32) (m ((c : Thread nD τ).loc main_arg4) : FVec Ideal S8x5 .f32)
    (m ((c : Thread nD τ).loc main_arg5) : FVec Ideal S1x5 .f32) (m ((c : Thread nD τ).loc main_arg6) : FVec Ideal S1 .f32)
    (fun k : Fin 10 => (m ((c : Thread nD τ).loc main_arg0) : FVec Ideal S4194304x10 .f32) (ix2 n k))) (Fin.ext ?_)
  show t.val * 131072 + (y 1).val = win0_7.index t (1 : Fin 2) * 131072 + 1 * (y 1).val
  rw [e71]
  omega

/-- An index of the [1, N] array is in point `t`'s block iff each coordinate is in the block's range on its axis. -/
theorem mem_blk (t : Fin cfg0.N) (i : S1x4194304.Idx) :
    i ∈ ((cfg0.win 7).blk t).view.set ↔ ∀ a : Fin 2, win0_7.index t a * S1x131072.size a ≤ (i a).val
      ∧ (i a).val < win0_7.index t a * S1x131072.size a + S1x131072.size a := by
  show i ∈ ((View.whole main_v4).slice (win0_7.rect t)).set ↔ _
  rw [View.set_slice_whole, Rect.mem_set_unit]
  exact Iff.rfl

/-- Every column lies in the block of the point `n / 131072`, which writes back. -/
theorem cover (i : S1x4194304.Idx) :
    ∃ t : Fin cfg0.N, (cfg0.win 7).flush t = true ∧ i ∈ ((cfg0.win 7).blk t).view.set := by
  have hi0 : (i 0).val < 1 := (i 0).isLt
  have hi1 : (i 1).val < 4194304 := (i 1).isLt
  have hN : cfg0.N = 32 := N_0
  obtain ⟨t, htv⟩ : ∃ t : Fin cfg0.N, t.val = (i 1).val / 131072 := ⟨⟨(i 1).val / 131072, by rw [hN]; omega⟩, rfl⟩
  obtain ⟨e00, e01, e10, e11, e20, e21, e30, e31, e32, e40, e41, e42, e50, e51, e60, e61, e70, e71⟩ := idx_facts t
  refine ⟨t, flush0_7 t, ?_⟩
  rw [mem_blk]
  intro a
  match a with
  | ⟨0, _⟩ =>
    show win0_7.index t (0 : Fin 2) * 1 ≤ (i 0).val ∧ (i 0).val < win0_7.index t (0 : Fin 2) * 1 + 1
    rw [e70]; omega
  | ⟨1, _⟩ =>
    show win0_7.index t (1 : Fin 2) * 131072 ≤ (i 1).val ∧ (i 1).val < win0_7.index t (1 : Fin 2) * 131072 + 131072
    rw [e71, htv]; omega

/-- So the region leaves the whole [1, N] array at `rowResult`. -/
theorem final_row (c : Dev nD) : (dats m 0 c).arrAt 7 cfg0.N = rowResult m c :=
  (dats m 0 c).arrAt_eq_of_cover 7 (rowResult m c) (fun t _ => flushed_eq m c t) cover

/-- The reshape after the region turns the [1, N] array into the [N, 1] result of the specification. -/
theorem tail_result (c : Dev nD) :
    Pipeline.afterTail₀ cfgs (dats m) 0 (V0 m) [hostOps1] c main_v5
      = MlpSpec.result (m ((c : Thread nD τ).loc main_arg0) : FVec Ideal S4194304x10 .f32) (m ((c : Thread nD τ).loc main_arg1) : FVec Ideal S5x10 .f32) (m ((c : Thread nD τ).loc main_arg2) : FVec Ideal S5 .f32)
          (m ((c : Thread nD τ).loc main_arg3) : FVec Ideal S8x5x5 .f32) (m ((c : Thread nD τ).loc main_arg4) : FVec Ideal S8x5 .f32)
          (m ((c : Thread nD τ).loc main_arg5) : FVec Ideal S1x5 .f32) (m ((c : Thread nD τ).loc main_arg6) : FVec Ideal S1 .f32) := by
  unfold Pipeline.afterTail₀
  show StableHlo.after hostOps1 _ (Proc.devRef .tc main_v5) = _
  after_results
  funext i
  obtain ⟨n, u, rfl⟩ : ∃ (n : Fin 4194304) (u : Fin 1), i = ix2 n u := ⟨i 0, i 1, eq_ix2 i⟩
  show shapeCast S4194304x1 (Pipeline.withArrays (cfgs 0).spec c (V0 m c) (fun w => (dats m 0 c).arrAt w (cfgs 0).N)
      (Proc.devRef .tc main_v4)) shapeCasts_S1x4194304_S4194304x1 (ix2 n u) = _
  refine (shapeCast_apply _ shapeCasts_S1x4194304_S4194304x1 (ix2 n u) (ix2 (0 : Fin 1) n) (by
    rw [Shape.rowMajor_val_two, Shape.rowMajor_val_two]
    show 0 * 4194304 + n.val = n.val * 1 + u.val
    omega)).trans ?_
  refine (congrFun ((Pipeline.withArrays_arr spec0 launch0.win.arr_inj c _ _ 7).trans (final_row m c)) (ix2 (0 : Fin 1) n)).trans ?_
  rfl

/-! ## The kernel's run, read -/

/-- Every weakly fair execution of the kernel's program terminates with the result array at the specification's `result`
    of the argument arrays, and the argument arrays unchanged: the generated frame run, with its post read. -/
theorem run : θ_run defs (onTc (τ := τ) (main (F := Ideal))) ⟨m, fun _ => 0, ρ⟩ fun r => ∀ c : Dev nD,
      r.2.mem ((c.tc : Thread nD τ).loc main_v5) = MlpSpec.result (m ((c : Thread nD τ).loc main_arg0) : FVec Ideal S4194304x10 .f32) (m ((c : Thread nD τ).loc main_arg1) : FVec Ideal S5x10 .f32)
          (m ((c : Thread nD τ).loc main_arg2) : FVec Ideal S5 .f32) (m ((c : Thread nD τ).loc main_arg3) : FVec Ideal S8x5x5 .f32)
          (m ((c : Thread nD τ).loc main_arg4) : FVec Ideal S8x5 .f32) (m ((c : Thread nD τ).loc main_arg5) : FVec Ideal S1x5 .f32)
          (m ((c : Thread nD τ).loc main_arg6) : FVec Ideal S1 .f32)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun r h c =>
    ⟨((h c).2 main_v5 (Pipeline.mem_restRefs_of main_v5 (by decide) (by decide))).trans (tail_result m c),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c),
      ((h c).1 3).trans (((dats m 0 c).arrAt_in 3 rfl _).trans ((A_eq m c 3).trans (V_main_arg3 m c))),
      ((h c).2 main_arg4 (Pipeline.mem_restRefs_of main_arg4 (by decide) (by decide))).trans (W_main_arg4 m (dats m) c),
      ((h c).1 5).trans (((dats m 0 c).arrAt_in 5 rfl _).trans ((A_eq m c 5).trans (V_main_arg5 m c))),
      ((h c).2 main_arg6 (Pipeline.mem_restRefs_of main_arg6 (by decide) (by decide))).trans (W_main_arg6 m (dats m) c)⟩)
    (run_main m ρ)

end Cert.KerValue

end
-- ==== Proof.lean ====
/-
  A ten-layer perceptron on 4194304 samples of ten features: nine layers `h ↦ max (W·h + b, 0)` (10 → 5, then eight of
  5 → 5) and a last affine layer 5 → 1. The kernel transposes the samples into columns, runs the layers on blocks of
  131072 columns with each weight matrix on the left, and reshapes its [1, N] row of results to [N, 1]; the reference
  keeps the samples as rows and multiplies by the transposed weights on the right.

  Over the extended reals both compute, for every sample `n`, the same nested expression (Spec.lean's `result`): a sum of
  products, a bias added, a maximum with zero, ten times over. The only difference is the order of the two factors in each
  product, so the two sides are joined by commutativity of the product alone, which holds on all of the extended reals; the
  finiteness of the inputs is never used.

  Spec.lean states the function; RefValue.lean reads the reference's run, operation by operation, as that function;
  KerLayer.lean reads the value the kernel's body stores, one column at a time; KerBlock.lean goes from what each grid point
  writes back to the whole array and through the final reshape. Here the five conjuncts are put together: the three frames
  (the kernel's two are the generated frame runs, the reference's is its run with the result dropped), the idealization
  (the idealized kernel is the kernel's own text read over the extended reals: no operation is rewritten) and the equality
  of the two results.
-/
import proofs.«169064_j71399536328822_2_alg».proof.Defs
import proofs.«169064_j71399536328822_2_alg».proof.Proof.Gen.Kernel
import proofs.«169064_j71399536328822_2_alg».proof.Proof.Gen.Kernel.Skeleton
import proofs.«169064_j71399536328822_2_alg».proof.Proof.Gen.Kernel.Launch
import proofs.«169064_j71399536328822_2_alg».proof.Proof.Gen.Kernel.Points
import proofs.«169064_j71399536328822_2_alg».proof.Proof.Gen.Kernel.Frame
import proofs.«169064_j71399536328822_2_alg».proof.Proof.Gen.KernelIdeal
import proofs.«169064_j71399536328822_2_alg».proof.Proof.Gen.KernelIdeal.Skeleton
import proofs.«169064_j71399536328822_2_alg».proof.Proof.Gen.KernelIdeal.Launch
import proofs.«169064_j71399536328822_2_alg».proof.Proof.Gen.KernelIdeal.Points
import proofs.«169064_j71399536328822_2_alg».proof.Proof.Gen.KernelIdeal.Frame
import proofs.«169064_j71399536328822_2_alg».proof.Proof.Gen.ReferenceIdeal
import proofs.«169064_j71399536328822_2_alg».proof.Proof.Gen.ReferenceIdeal.Run
import proofs.«169064_j71399536328822_2_alg».proof.Proof.Gen.ReferenceIdeal.Read
import proofs.«169064_j71399536328822_2_alg».proof.Proof.Gen.Pre_finite_inputs
import proofs.«169064_j71399536328822_2_alg».proof.Proof.Spec
import proofs.«169064_j71399536328822_2_alg».proof.Proof.RefValue
import proofs.«169064_j71399536328822_2_alg».proof.Proof.KerBlock
import Idealize.ShloMosaic.Adequacy
import Idealize.ShloMosaic.Init

noncomputable section

namespace Cert.Proof

open Idealize.ShloMosaic Idealize.ShloMosaic.TcCoe Idealize.SL.Sem

/-- The kernel as printed runs and leaves its arguments unchanged: the generated frame run. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference runs and leaves its arguments unchanged: its generated run, with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealized kernel is the kernel's own text read over the extended reals: no operation is rewritten, so there is
    nothing to restate. -/
theorem preserves : Cert.preserves_Kernel_KernelIdeal := trivial

/-- From memories that agree on the seven arguments, both programs end with the result array at the network's value on
    every sample: the kernel by its run read through the blocks and the final reshape, the reference by its run read
    layer by layer. -/
theorem algebraic : Cert.algebraic_KernelIdeal_ReferenceIdeal := by
  intro m ρ m' ρ' _ hagree
  refine ⟨fun c => Cert.MlpSpec.result (m ((c.tc : Thread Cert.KernelIdeal.nD Cert.KernelIdeal.τ).loc Cert.KernelIdeal.main_arg0) : FVec Ideal Cert.KernelIdeal.S4194304x10 .f32)
      (m ((c.tc : Thread Cert.KernelIdeal.nD Cert.KernelIdeal.τ).loc Cert.KernelIdeal.main_arg1) : FVec Ideal Cert.KernelIdeal.S5x10 .f32)
      (m ((c.tc : Thread Cert.KernelIdeal.nD Cert.KernelIdeal.τ).loc Cert.KernelIdeal.main_arg2) : FVec Ideal Cert.KernelIdeal.S5 .f32)
      (m ((c.tc : Thread Cert.KernelIdeal.nD Cert.KernelIdeal.τ).loc Cert.KernelIdeal.main_arg3) : FVec Ideal Cert.KernelIdeal.S8x5x5 .f32)
      (m ((c.tc : Thread Cert.KernelIdeal.nD Cert.KernelIdeal.τ).loc Cert.KernelIdeal.main_arg4) : FVec Ideal Cert.KernelIdeal.S8x5 .f32)
      (m ((c.tc : Thread Cert.KernelIdeal.nD Cert.KernelIdeal.τ).loc Cert.KernelIdeal.main_arg5) : FVec Ideal Cert.KernelIdeal.S1x5 .f32)
      (m ((c.tc : Thread Cert.KernelIdeal.nD Cert.KernelIdeal.τ).loc Cert.KernelIdeal.main_arg6) : FVec Ideal Cert.KernelIdeal.S1 .f32),
    Cert.KerValue.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6⟩ := hagree c
  rw [Cert.ReferenceIdeal.Read.val_main_v90_eq, Cert.RefValue.val_eq_result, a0, a1, a2, a3, a4, a5, a6]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
